-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v53)) (v1 : (c : Dev Cert.KernelIdeal.nD) → Buf (Elt Ideal) ((c.tc : Thread Cert.KernelIdeal.nD Cert.KernelIdeal.τ).loc Cert.KernelIdeal.main_v54)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v53) = v0 c
          ∧ r.2.mem ((c.tc : Thread Cert.KernelIdeal.nD Cert.KernelIdeal.τ).loc Cert.KernelIdeal.main_v54) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v85) = v0 c
          ∧ r.2.mem ((c.tc : Thread Cert.ReferenceIdeal.nD Cert.ReferenceIdeal.τ).loc Cert.ReferenceIdeal.main_v98) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S50000x128 : Shape := ⟨2, ![50000, 128]⟩
abbrev S100000x1 : Shape := ⟨2, ![100000, 1]⟩
abbrev S50000x1 : Shape := ⟨2, ![50000, 1]⟩
abbrev S600000x1 : Shape := ⟨2, ![600000, 1]⟩
abbrev S128x128 : Shape := ⟨2, ![128, 128]⟩
abbrev S128 : Shape := ⟨1, ![128]⟩
abbrev S600000 : Shape := ⟨1, ![600000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S50000x128 : S_.BroadcastsInDim S50000x128 (![] : Fin 0 → Fin S50000x128.rank)
  reducesTo_S50000x128_S_d0_1 : S50000x128.ReducesTo [0, 1] S_
  bcast_S_S100000x1 : S_.BroadcastsInDim S100000x1 (![] : Fin 0 → Fin S100000x1.rank)
  reducesTo_S100000x1_S_d0_1 : S100000x1.ReducesTo [0, 1] S_
  bcast_S_S50000x1 : S_.BroadcastsInDim S50000x1 (![] : Fin 0 → Fin S50000x1.rank)
  reducesTo_S50000x1_S_d0_1 : S50000x1.ReducesTo [0, 1] S_
  bcast_S_S600000x1 : S_.BroadcastsInDim S600000x1 (![] : Fin 0 → Fin S600000x1.rank)
  reducesTo_S600000x1_S_d0_1 : S600000x1.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg7 : FVec F S128 .f32) (main_arg8 : FVec F S128x128 .f32) (main_arg9 : FVec F S128 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg8
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg9
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  main_v48

def fn_part1 {F : FTy → Type} [FloatOps F] (main_arg4 : FVec F S600000x1 .f32) (main_arg5 : FVec F S600000x1 .f32) (main_arg6 : FVec F S128x128 .f32) (main_arg7 : FVec F S128 .f32) (main_arg8 : FVec F S128x128 .f32) (main_arg9 : FVec F S128 .f32) (main_v13 : IVec S_ 1) (main_v16 : IVec S50000x1 1) : IVec S_ 1 :=
  let main_c_5 : IVec S_ 1 := constantI S_ 1 1#1
  let main_v17 : IVec S_ 1 := (fun x v => Host.reduce IntOp.andi x v reducesTo_S50000x1_S_d0_1 h_S_) main_v16 main_c_5
  let main_v18 : IVec S_ 1 := andi main_v13 main_v17
  let main_v19 : FVec F S600000x1 .f32 := Host.absf main_arg4
  let main_cst_6 : FVec F S_ .f32 := constant S_ .f32 0x7F800000#32
  let main_v20 : FVec F S600000x1 .f32 := broadcastInDim S600000x1 ![] bcast_S_S600000x1 main_cst_6
  let main_v21 : IVec S600000x1 1 := cmpf .olt main_v19 main_v20
  let main_c_7 : IVec S_ 1 := constantI S_ 1 1#1
  let main_v22 : IVec S_ 1 := (fun x v => Host.reduce IntOp.andi x v reducesTo_S600000x1_S_d0_1 h_S_) main_v21 main_c_7
  let main_v23 : IVec S_ 1 := andi main_v18 main_v22
  let main_v24 : FVec F S600000x1 .f32 := Host.absf main_arg5
  let main_cst_8 : FVec F S_ .f32 := constant S_ .f32 0x7F800000#32
  let main_v25 : FVec F S600000x1 .f32 := broadcastInDim S600000x1 ![] bcast_S_S600000x1 main_cst_8
  let main_v26 : IVec S600000x1 1 := cmpf .olt main_v24 main_v25
  let main_c_9 : IVec S_ 1 := constantI S_ 1 1#1
  let main_v27 : IVec S_ 1 := (fun x v => Host.reduce IntOp.andi x v reducesTo_S600000x1_S_d0_1 h_S_) main_v26 main_c_9
  let main_v28 : IVec S_ 1 := andi main_v23 main_v27
  let main_v29 : FVec F S128x128 .f32 := Host.absf main_arg6
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg7 main_arg8 main_arg9 main_v33

def fn {F : FTy → Type} [FloatOps F] (main_arg0 : FVec F S100000x128 .f32) (main_arg1 : FVec F S50000x128 .f32) (main_arg2 : FVec F S100000x1 .f32) (main_arg3 : FVec F S50000x1 .f32) (main_arg4 : FVec F S600000x1 .f32) (main_arg5 : FVec F S600000x1 .f32) (main_arg6 : FVec F S128x128 .f32) (main_arg7 : FVec F S128 .f32) (main_arg8 : FVec F S128x128 .f32) (main_arg9 : FVec F S128 .f32) (main_arg10 : IVec S600000 32) (main_arg11 : IVec S600000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S50000x128 .f32 := Host.absf main_arg1
  let main_cst_0 : FVec F S_ .f32 := constant S_ .f32 0x7F800000#32
  let main_v5 : FVec F S50000x128 .f32 := broadcastInDim S50000x128 ![] bcast_S_S50000x128 main_cst_0
  let main_v6 : IVec S50000x128 1 := cmpf .olt main_v4 main_v5
  let main_c_1 : IVec S_ 1 := constantI S_ 1 1#1
  let main_v7 : IVec S_ 1 := (fun x v => Host.reduce IntOp.andi x v reducesTo_S50000x128_S_d0_1 h_S_) main_v6 main_c_1
  let main_v8 : IVec S_ 1 := andi main_v3 main_v7
  let main_v9 : FVec F S100000x1 .f32 := Host.absf main_arg2
  let main_cst_2 : FVec F S_ .f32 := constant S_ .f32 0x7F800000#32
  let main_v10 : FVec F S100000x1 .f32 := broadcastInDim S100000x1 ![] bcast_S_S100000x1 main_cst_2
  let main_v11 : IVec S100000x1 1 := cmpf .olt main_v9 main_v10
  let main_c_3 : IVec S_ 1 := constantI S_ 1 1#1
  let main_v12 : IVec S_ 1 := (fun x v => Host.reduce IntOp.andi x v reducesTo_S100000x1_S_d0_1 h_S_) main_v11 main_c_3
  let main_v13 : IVec S_ 1 := andi main_v8 main_v12
  let main_v14 : FVec F S50000x1 .f32 := Host.absf main_arg3
  let main_cst_4 : FVec F S_ .f32 := constant S_ .f32 0x7F800000#32
  let main_v15 : FVec F S50000x1 .f32 := broadcastInDim S50000x1 ![] bcast_S_S50000x1 main_cst_4
  let main_v16 : IVec S50000x1 1 := cmpf .olt main_v14 main_v15
  fn_part1 (F := F) main_arg4 main_arg5 main_arg6 main_arg7 main_arg8 main_arg9 main_v13 main_v16
-- ==== Kernel.lean ====
abbrev S100000x128 : Shape := ⟨2, ![100000, 128]⟩
abbrev S50000x128 : Shape := ⟨2, ![50000, 128]⟩
abbrev S100000x1 : Shape := ⟨2, ![100000, 1]⟩
abbrev S50000x1 : Shape := ⟨2, ![50000, 1]⟩
abbrev S600000x1 : Shape := ⟨2, ![600000, 1]⟩
abbrev S128x128 : Shape := ⟨2, ![128, 128]⟩
abbrev S128 : Shape := ⟨1, ![128]⟩
abbrev S600000 : Shape := ⟨1, ![600000]⟩
abbrev S_ : Shape := ⟨0, ![]⟩
abbrev S600000x128 : Shape := ⟨2, ![600000, 128]⟩
abbrev S600000x256 : Shape := ⟨2, ![600000, 256]⟩
abbrev S100000x256 : Shape := ⟨2, ![100000, 256]⟩
abbrev S50000x256 : Shape := ⟨2, ![50000, 256]⟩
abbrev S1x128 : Shape := ⟨2, ![1, 128]⟩
abbrev S10000x128 : Shape := ⟨2, ![10000, 128]⟩
abbrev S10000 : Shape := ⟨1, ![10000]⟩
abbrev S10000x1 : Shape := ⟨2, ![10000, 1]⟩

abbrev nBuf : Space → Nat
  | .hbm => 77
  | .vmem => 24
  | .smem => 0
  | _ => 0

abbrev bufTy : (tb : Table) → Fin (tcTables nBuf tb) → BufTy
  | .hbm, ⟨0, _⟩ => ⟨S100000x128, .f32⟩
  | .hbm, ⟨1, _⟩ => ⟨S50000x128, .f32⟩
  | .hbm, ⟨2, _⟩ => ⟨S100000x1, .f32⟩
  | .hbm, ⟨3, _⟩ => ⟨S50000x1, .f32⟩
  | .hbm, ⟨4, _⟩ => ⟨S600000x1, .f32⟩
  | .hbm, ⟨5, _⟩ => ⟨S600000x1, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S600000, .i32⟩
  | .hbm, ⟨11, _⟩ => ⟨S600000, .i32⟩
  | .hbm, ⟨12, _⟩ => ⟨S_, .i32⟩
  | .hbm, ⟨13, _⟩ => ⟨S600000, .i32⟩
  | .hbm, ⟨14, _⟩ => ⟨S600000, .i1⟩
  | .hbm, ⟨15, _⟩ => ⟨S_, .i32⟩
  | .hbm, ⟨16, _⟩ => ⟨S600000, .i32⟩
  | .hbm, ⟨17, _⟩ => ⟨S600000, .i32⟩
  | .hbm, ⟨18, _⟩ => ⟨S600000, .i32⟩
  | .hbm, ⟨19, _⟩ => ⟨S600000x1, .i32⟩
  | .hbm, ⟨20, _⟩ => ⟨S600000x128, .f32⟩
  | .hbm, ⟨21, _⟩ => ⟨S_, .i32⟩
  | .hbm, ⟨22, _⟩ => ⟨S600000, .i32⟩
  | .hbm, ⟨23, _⟩ => ⟨S600000, .i1⟩
  | .hbm, ⟨24, _⟩ => ⟨S_, .i32⟩
  | .hbm, ⟨25, _⟩ => ⟨S600000, .i32⟩
  | .hbm, ⟨26, _⟩ => ⟨S600000, .i32⟩
  | .hbm, ⟨27, _⟩ => ⟨S600000, .i32⟩
  | .hbm, ⟨28, _⟩ => ⟨S600000x1, .i32⟩
  | .hbm, ⟨29, _⟩ => ⟨S600000x128, .f32⟩
  | .hbm, ⟨30, _⟩ => ⟨S_, .i32⟩
  | .hbm, ⟨31, _⟩ => ⟨S600000, .i32⟩
  | .hbm, ⟨32, _⟩ => ⟨S600000, .i1⟩
  | .hbm, ⟨33, _⟩ => ⟨S_, .i32⟩
  | .hbm, ⟨34, _⟩ => ⟨S600000, .i32⟩
  | .hbm, ⟨35, _⟩ => ⟨S600000, .i32⟩
  | .hbm, ⟨36, _⟩ => ⟨S600000, .i32⟩
  | .hbm, ⟨37, _⟩ => ⟨S600000x1, .i32⟩
  | .hbm, ⟨38, _⟩ => ⟨S600000x1, .f32⟩
  | .hbm, ⟨39, _⟩ => ⟨S_, .i32⟩
  | .hbm, ⟨40, _⟩ => ⟨S600000, .i32⟩
  | .hbm, ⟨41, _⟩ => ⟨S600000, .i1⟩
  | .hbm, ⟨42, _⟩ => ⟨S_, .i32⟩
  | .hbm, ⟨43, _⟩ => ⟨S600000, .i32⟩
  | .hbm, ⟨44, _⟩ => ⟨S600000, .i32⟩
  | .hbm, ⟨45, _⟩ => ⟨S600000, .i32⟩
  | .hbm, ⟨46, _⟩ => ⟨S600000x1, .i32⟩
  | .hbm, ⟨47, _⟩ => ⟨S600000x1, .f32⟩
  | .hbm, ⟨48, _⟩ => ⟨S600000x128, .f32⟩
  | .hbm, ⟨49, _⟩ => ⟨S600000x128, .f32⟩
  | .hbm, ⟨50, _⟩ => ⟨S600000x128, .f32⟩
  | .hbm, ⟨51, _⟩ => ⟨S600000x128, .f32⟩
  | .hbm, ⟨52, _⟩ => ⟨S600000x128, .f32⟩
  | .hbm, ⟨53, _⟩ => ⟨S600000x128, .f32⟩
  | .hbm, ⟨54, _⟩ => ⟨S600000x128, .f32⟩
  | .hbm, ⟨55, _⟩ => ⟨S600000x128, .f32⟩
  | .hbm, ⟨56, _⟩ => ⟨S600000x128, .f32⟩
  | .hbm, ⟨57, _⟩ => ⟨S600000x256, .f32⟩
  | .hbm, ⟨58, _⟩ => ⟨S600000x256, .f32⟩
  | .hbm, ⟨59, _⟩ => ⟨S_, .f32⟩
  | .hbm, ⟨60, _⟩ => ⟨S100000x256, .f32⟩
  | .hbm, ⟨61, _⟩ => ⟨S600000x1, .i32⟩
  | .hbm, ⟨62, _⟩ => ⟨S100000x256, .f32⟩
  | .hbm, ⟨63, _⟩ => ⟨S_, .f32⟩
  | .hbm, ⟨64, _⟩ => ⟨S50000x256, .f32⟩
  | .hbm, ⟨65, _⟩ => ⟨S600000x1, .i32⟩
  | .hbm, ⟨66, _⟩ => ⟨S50000x256, .f32⟩
  | .hbm, ⟨67, _⟩ => ⟨S100000x128, .f32⟩
  | .hbm, ⟨68, _⟩ => ⟨S100000x128, .f32⟩
  | .hbm, ⟨69, _⟩ => ⟨S50000x128, .f32⟩
  | .hbm, ⟨70, _⟩ => ⟨S50000x128, .f32⟩
  | .hbm, ⟨71, _⟩ => ⟨S128x128, .f32⟩
  | .hbm, ⟨72, _⟩ => ⟨S128x128, .f32⟩
  | .hbm, ⟨73, _⟩ => ⟨S1x128, .f32⟩
  | .hbm, ⟨74, _⟩ => ⟨S1x128, .f32⟩
  | .hbm, ⟨75, _⟩ => ⟨S100000x128, .f32⟩
  | .hbm, ⟨76, _⟩ => ⟨S50000x128, .f32⟩
  | .local _ .vmem, ⟨0, _⟩ => ⟨S10000x128, .f32⟩
  | .local _ .vmem, ⟨1, _⟩ => ⟨S10000x128, .f32⟩
  | .local _ .vmem, ⟨2, _⟩ => ⟨S10000x128, .f32⟩
  | .local _ .vmem, ⟨3, _⟩ => ⟨S10000x128, .f32⟩
  | .local _ .vmem, ⟨4, _⟩ => ⟨S10000x128, .f32⟩
  | .local _ .vmem, ⟨5, _⟩ => ⟨S10000x128, .f32⟩
  | .local _ .vmem, ⟨6, _⟩ => ⟨S128x128, .f32⟩
  | .local _ .vmem, ⟨7, _⟩ => ⟨S1x128, .f32⟩
  | .local _ .vmem, ⟨8, _⟩ => ⟨S128x128, .f32⟩
  | .local _ .vmem, ⟨9, _⟩ => ⟨S1x128, .f32⟩
  | .local _ .vmem, ⟨10, _⟩ => ⟨S10000x128, .f32⟩
  | .local _ .vmem, ⟨11, _⟩ => ⟨S10000x128, .f32⟩
  | .local _ .vmem, ⟨12, _⟩ => ⟨S10000x128, .f32⟩
  | .local _ .vmem, ⟨13, _⟩ => ⟨S10000x128, .f32⟩
  | .local _ .vmem, ⟨14, _⟩ => ⟨S10000x128, .f32⟩
  | .local _ .vmem, ⟨15, _⟩ => ⟨S10000x128, .f32⟩
  | .local _ .vmem, ⟨16, _⟩ => ⟨S10000x128, .f32⟩
  | .local _ .vmem, ⟨17, _⟩ => ⟨S10000x128, .f32⟩
  | .local _ .vmem, ⟨18, _⟩ => ⟨S128x128, .f32⟩
  | .local _ .vmem, ⟨19, _⟩ => ⟨S1x128, .f32⟩
  | .local _ .vmem, ⟨20, _⟩ => ⟨S128x128, .f32⟩
  | .local _ .vmem, ⟨21, _⟩ => ⟨S1x128, .f32⟩
  | .local _ .vmem, ⟨22, _⟩ => ⟨S10000x128, .f32⟩
  | .local _ .vmem, ⟨23, _⟩ => ⟨S10000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_v0 : Ref sig .tc := ⟨.hbm, 13, rfl⟩
abbrev main_v1 : Ref sig .tc := ⟨.hbm, 14, rfl⟩
abbrev main_c_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_c_1 : Ref sig .tc := ⟨.hbm, 21, rfl⟩
abbrev main_v7 : Ref sig .tc := ⟨.hbm, 22, rfl⟩
abbrev main_v8 : Ref sig .tc := ⟨.hbm, 23, rfl⟩
abbrev main_c_2 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_c_3 : Ref sig .tc := ⟨.hbm, 30, rfl⟩
abbrev main_v14 : Ref sig .tc := ⟨.hbm, 31, rfl⟩
abbrev main_v15 : Ref sig .tc := ⟨.hbm, 32, rfl⟩
abbrev main_c_4 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_c_5 : Ref sig .tc := ⟨.hbm, 39, rfl⟩
abbrev main_v21 : Ref sig .tc := ⟨.hbm, 40, rfl⟩
abbrev main_v22 : Ref sig .tc := ⟨.hbm, 41, rfl⟩
abbrev main_c_6 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_cst : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_7 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg6_0 : Ref sig .tc := ⟨.vmem, 21, rfl⟩
abbrev cc1_stg7_0 : Ref sig .tc := ⟨.vmem, 22, rfl⟩
abbrev cc1_stg7_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem4_0 : DmaSem sig := 19
abbrev cc1_sem5_0 : DmaSem sig := 20
abbrev cc1_sem6_0 : DmaSem sig := 21
abbrev cc1_sem7_0 : DmaSem sig := 22
abbrev cc1_sem7_1 : DmaSem sig := 23

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S10000x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S10000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S10000x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  bcast_S_S600000 : S_.BroadcastsInDim S600000 (![] : Fin 0 → Fin S600000.rank)
  bcast_S600000_S600000x1_0 : S600000.BroadcastsInDim S600000x1 (![0] : Fin 1 → Fin S600000x1.rank)
  bcast_S600000x1_S600000x128_0_1 : S600000x1.BroadcastsInDim S600000x128 (![0, 1] : Fin 2 → Fin S600000x128.rank)
  concatenates_S600000x128_S600000x128_S600000x256_d1 : Shape.Concatenates [S600000x128, S600000x128] S600000x256 1
  bcast_S_S100000x256 : S_.BroadcastsInDim S100000x256 (![] : Fin 0 → Fin S100000x256.rank)
  bcast_S_S50000x256 : S_.BroadcastsInDim S50000x256 (![] : Fin 0 → Fin S50000x256.rank)
  slices_S100000x256_S100000x128_0_0 : S100000x256.Slices ![0, 0] S100000x128
  slices_S100000x256_S100000x128_0_128 : S100000x256.Slices ![0, 128] S100000x128
  slices_S50000x256_S50000x128_0_0 : S50000x256.Slices ![0, 0] S50000x128
  slices_S50000x256_S50000x128_0_128 : S50000x256.Slices ![0, 128] S50000x128
  transposes_S128x128_S128x128_1_0 : S128x128.Transposes [1, 0] S128x128
  shapeCasts_S128_S1x128 : S128.ShapeCasts S1x128
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  reduces_S10000x128_S10000 : S10000x128.Reduces [1] S10000
  shapeCasts_S10000_S10000x1 : S10000.ShapeCasts S10000x1
  broadcasts_S10000x1_S10000x128 : S10000x1.Broadcasts S10000x128
  gather_S100000x128_S600000x1_S600000x128_1_0_n_n_0_1_1128_wf : GatherDims.WF S100000x128 S600000x1 S600000x128 [1] [0] [] [0] [] 1 ![1, 128]
  gather_S50000x128_S600000x1_S600000x128_1_0_n_n_0_1_1128_wf : GatherDims.WF S50000x128 S600000x1 S600000x128 [1] [0] [] [0] [] 1 ![1, 128]
  gather_S100000x1_S600000x1_S600000x1_1_0_n_n_0_1_11_wf : GatherDims.WF S100000x1 S600000x1 S600000x1 [1] [0] [] [0] [] 1 ![1, 1]
  gather_S50000x1_S600000x1_S600000x1_1_0_n_n_0_1_11_wf : GatherDims.WF S50000x1 S600000x1 S600000x1 [1] [0] [] [0] [] 1 ![1, 1]
  scatter_S100000x256_S600000x1_S600000x256_1_0_0_1_wf : ScatterDims.WF S100000x256 S600000x1 S600000x256 [1] [0] [0] 1
  scatter_S50000x256_S600000x1_S600000x256_1_0_0_1_wf : ScatterDims.WF S50000x256 S600000x1 S600000x256 [1] [0] [0] 1
  dot_S10000x128_S128x128_S10000x128_1_0_0_1_n_n_wf : DotDims.WF S10000x128 S128x128 S10000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S100000x128.size a
  hwx0_1 : ∀ i : grid0.Coords, EltTy.bits .f32 = 32 ∨ (Rect.block (s := S100000x128) S10000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S100000x128.size a
  hwx0_2 : ∀ i : grid0.Coords, EltTy.bits .f32 = 32 ∨ (Rect.block (s := S100000x128) S10000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S10000x128.size a ≤ S100000x128.size a
  hwx0_7 : ∀ i : grid0.Coords, EltTy.bits .f32 = 32 ∨ (Rect.block (s := S100000x128) S10000x128.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S50000x128.size a
  hwx1_0 : ∀ i : grid1.Coords, EltTy.bits .f32 = 32 ∨ (Rect.block (s := S50000x128) S10000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x128.size a ≤ S50000x128.size a
  hwx1_1 : ∀ i : grid1.Coords, EltTy.bits .f32 = 32 ∨ (Rect.block (s := S50000x128) S10000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x128.size a ≤ S50000x128.size a
  hwx1_2 : ∀ i : grid1.Coords, EltTy.bits .f32 = 32 ∨ (Rect.block (s := S50000x128) S10000x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S10000x128.size a ≤ S50000x128.size a
  hwx1_7 : ∀ i : grid1.Coords, EltTy.bits .f32 = 32 ∨ (Rect.block (s := S50000x128) S10000x128.size (cc1_transform_7 i) (hinb1_7 i)).WholeWords (EltTy.packing .f32)

variable [Facts₀]

def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def gather_S100000x1_S600000x1_S600000x1_1_0_n_n_0_1_11 : GatherDims S100000x1 S600000x1 S600000x1 where
  offsetDims := [1]
  collapsedSliceDims := [0]
  operandBatchingDims := []
  startIndicesBatchingDims := []
  startIndexMap := [0]
  indexVectorDim := 1
  sliceSizes := ![1, 1]
  wf := gather_S100000x1_S600000x1_S600000x1_1_0_n_n_0_1_11_wf
def gather_S50000x1_S600000x1_S600000x1_1_0_n_n_0_1_11 : GatherDims S50000x1 S600000x1 S600000x1 where
  offsetDims := [1]
  collapsedSliceDims := [0]
  operandBatchingDims := []
  startIndicesBatchingDims := []
  startIndexMap := [0]
  indexVectorDim := 1
  sliceSizes := ![1, 1]
  wf := gather_S50000x1_S600000x1_S600000x1_1_0_n_n_0_1_11_wf
def scatter_S100000x256_S600000x1_S600000x256_1_0_0_1 : ScatterDims S100000x256 S600000x1 S600000x256 where
  updateWindowDims := [1]
  insertedWindowDims := [0]
  scatterDimsToOperandDims := [0]
  indexVectorDim := 1
  wf := scatter_S100000x256_S600000x1_S600000x256_1_0_0_1_wf
def scatter_S50000x256_S600000x1_S600000x256_1_0_0_1 : ScatterDims S50000x256 S600000x1 S600000x256 where
  updateWindowDims := [1]
  insertedWindowDims := [0]
  scatterDimsToOperandDims := [0]
  indexVectorDim := 1
  wf := scatter_S50000x256_S600000x1_S600000x256_1_0_0_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v45) S10000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v46) S10000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v49) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v51) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v50) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v52) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v53) S10000x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_arg1) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v47) S10000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v48) S10000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v49) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v51) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v50) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v52) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v54) S10000x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S100000x128 : Shape := ⟨2, ![100000, 128]⟩
abbrev S50000x128 : Shape := ⟨2, ![50000, 128]⟩
abbrev S100000x1 : Shape := ⟨2, ![100000, 1]⟩
abbrev S50000x1 : Shape := ⟨2, ![50000, 1]⟩
abbrev S600000x1 : Shape := ⟨2, ![600000, 1]⟩
abbrev S128x128 : Shape := ⟨2, ![128, 128]⟩
abbrev S128 : Shape := ⟨1, ![128]⟩
abbrev S600000 : Shape := ⟨1, ![600000]⟩
abbrev S_ : Shape := ⟨0, ![]⟩
abbrev S600000x128 : Shape := ⟨2, ![600000, 128]⟩
abbrev S1x128 : Shape := ⟨2, ![1, 128]⟩
abbrev S100000 : Shape := ⟨1, ![100000]⟩
abbrev S50000 : Shape := ⟨1, ![50000]⟩

abbrev nBuf : Space → Nat
  | .hbm => 131
  | .vmem => 0
  | .smem => 0
  | _ => 0

abbrev hbmTy0_0 (i : Nat) : BufTy := match i % 128 with
  | 0 => ⟨S100000x128, .f32⟩
  | 1 => ⟨S50000x128, .f32⟩
  | 2 => ⟨S100000x1, .f32⟩
  | 3 => ⟨S50000x1, .f32⟩
  | 4 => ⟨S600000x1, .f32⟩
  | 5 => ⟨S600000x1, .f32⟩
  | 6 => ⟨S128x128, .f32⟩
  | 7 => ⟨S128, .f32⟩
  | 8 => ⟨S128x128, .f32⟩
  | 9 => ⟨S128, .f32⟩
  | 10 => ⟨S600000, .i32⟩
  | 11 => ⟨S600000, .i32⟩
  | 12 => ⟨S100000x128, .f32⟩
  | 13 => ⟨S100000x128, .f32⟩
  | 14 => ⟨S_, .i32⟩
  | 15 => ⟨S600000, .i32⟩
  | 16 => ⟨S600000, .i1⟩
  | 17 => ⟨S_, .i32⟩
  | 18 => ⟨S600000, .i32⟩
  | 19 => ⟨S600000, .i32⟩
  | 20 => ⟨S600000, .i32⟩
  | 21 => ⟨S600000x1, .i32⟩
  | 22 => ⟨S600000x128, .f32⟩
  | 23 => ⟨S50000x128, .f32⟩
  | 24 => ⟨S50000x128, .f32⟩
  | 25 => ⟨S_, .i32⟩
  | 26 => ⟨S600000, .i32⟩
  | 27 => ⟨S600000, .i1⟩
  | 28 => ⟨S_, .i32⟩
  | 29 => ⟨S600000, .i32⟩
  | 30 => ⟨S600000, .i32⟩
  | 31 => ⟨S600000, .i32⟩
  | 32 => ⟨S600000x1, .i32⟩
  | 33 => ⟨S600000x128, .f32⟩
  | 34 => ⟨S600000x128, .f32⟩
  | 35 => ⟨S_, .i32⟩
  | 36 => ⟨S600000, .i32⟩
  | 37 => ⟨S600000, .i1⟩
  | 38 => ⟨S_, .i32⟩
  | 39 => ⟨S600000, .i32⟩
  | 40 => ⟨S600000, .i32⟩
  | 41 => ⟨S600000, .i32⟩
  | 42 => ⟨S600000x1, .i32⟩
  | 43 => ⟨S600000x128, .f32⟩
  | 44 => ⟨S600000x128, .f32⟩
  | 45 => ⟨S600000x128, .f32⟩
  | 46 => ⟨S_, .f32⟩
  | 47 => ⟨S100000x128, .f32⟩
  | 48 => ⟨S600000x1, .i32⟩
  | 49 => ⟨S100000x128, .f32⟩
  | 50 => ⟨S_, .i32⟩
  | 51 => ⟨S600000, .i32⟩
  | 52 => ⟨S600000, .i1⟩
  | 53 => ⟨S_, .i32⟩
  | 54 => ⟨S600000, .i32⟩
  | 55 => ⟨S600000, .i32⟩
  | 56 => ⟨S600000, .i32⟩
  | 57 => ⟨S600000x1, .i32⟩
  | 58 => ⟨S600000x128, .f32⟩
  | 59 => ⟨S600000x128, .f32⟩
  | 60 => ⟨S600000x128, .f32⟩
  | 61 => ⟨S_, .f32⟩
  | 62 => ⟨S50000x128, .f32⟩
  | 63 => ⟨S600000x1, .i32⟩
  | 64 => ⟨S50000x128, .f32⟩
  | 65 => ⟨S_, .f32⟩
  | 66 => ⟨S100000x128, .f32⟩
  | 67 => ⟨S600000x1, .i32⟩
  | 68 => ⟨S100000x128, .f32⟩
  | 69 => ⟨S_, .f32⟩
  | 70 => ⟨S50000x128, .f32⟩
  | 71 => ⟨S600000x1, .i32⟩
  | 72 => ⟨S50000x128, .f32⟩
  | 73 => ⟨S100000x128, .f32⟩
  | 74 => ⟨S128x128, .f32⟩
  | 75 => ⟨S100000x128, .f32⟩
  | 76 => ⟨S1x128, .f32⟩
  | 77 => ⟨S100000x128, .f32⟩
  | 78 => ⟨S100000x128, .f32⟩
  | 79 => ⟨S128x128, .f32⟩
  | 80 => ⟨S100000x128, .f32⟩
  | 81 => ⟨S100000x128, .f32⟩
  | 82 => ⟨S1x128, .f32⟩
  | 83 => ⟨S100000x128, .f32⟩
  | 84 => ⟨S100000x128, .f32⟩
  | 85 => ⟨S50000x128, .f32⟩
  | 86 => ⟨S128x128, .f32⟩
  | 87 => ⟨S50000x128, .f32⟩
  | 88 => ⟨S1x128, .f32⟩
  | 89 => ⟨S50000x128, .f32⟩
  | 90 => ⟨S50000x128, .f32⟩
  | 91 => ⟨S128x128, .f32⟩
  | 92 => ⟨S50000x128, .f32⟩
  | 93 => ⟨S50000x128, .f32⟩
  | 94 => ⟨S1x128, .f32⟩
  | 95 => ⟨S50000x128, .f32⟩
  | 96 => ⟨S50000x128, .f32⟩
  | 97 => ⟨S_, .f32⟩
  | 98 => ⟨S100000x128, .f32⟩
  | 99 => ⟨S100000x128, .i1⟩
  | 100 => ⟨S_, .f32⟩
  | 101 => ⟨S100000x128, .f32⟩
  | 102 => ⟨S100000x128, .f32⟩
  | 103 => ⟨S100000x128, .f32⟩
  | 104 => ⟨S100000x128, .f32⟩
  | 105 => ⟨S_, .f32⟩
  | 106 => ⟨S100000, .f32⟩
  | 107 => ⟨S100000x1, .f32⟩
  | 108 => ⟨S100000x1, .f32⟩
  | 109 => ⟨S_, .f32⟩
  | 110 => ⟨S100000x1, .f32⟩
  | 111 => ⟨S100000x1, .f32⟩
  | 112 => ⟨S100000x128, .f32⟩
  | 113 => ⟨S100000x128, .f32⟩
  | 114 => ⟨S_, .f32⟩
  | 115 => ⟨S50000x128, .f32⟩
  | 116 => ⟨S50000x128, .i1⟩
  | 117 => ⟨S_, .f32⟩
  | 118 => ⟨S50000x128, .f32⟩
  | 119 => ⟨S50000x128, .f32⟩
  | 120 => ⟨S50000x128, .f32⟩
  | 121 => ⟨S50000x128, .f32⟩
  | 122 => ⟨S_, .f32⟩
  | 123 => ⟨S50000, .f32⟩
  | 124 => ⟨S50000x1, .f32⟩
  | 125 => ⟨S50000x1, .f32⟩
  | 126 => ⟨S_, .f32⟩
  | 127 => ⟨S50000x1, .f32⟩
  | _ => ⟨S100000x128, .f32⟩

abbrev hbmTy0_1 (i : Nat) : BufTy := match i % 128 with
  | 0 => ⟨S50000x1, .f32⟩
  | 1 => ⟨S50000x128, .f32⟩
  | 2 => ⟨S50000x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_c : Ref sig .tc := ⟨.hbm, 14, rfl⟩
abbrev main_v2 : Ref sig .tc := ⟨.hbm, 15, rfl⟩
abbrev main_v3 : Ref sig .tc := ⟨.hbm, 16, rfl⟩
abbrev main_c_0 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_c_1 : Ref sig .tc := ⟨.hbm, 25, rfl⟩
abbrev main_v11 : Ref sig .tc := ⟨.hbm, 26, rfl⟩
abbrev main_v12 : Ref sig .tc := ⟨.hbm, 27, rfl⟩
abbrev main_c_2 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_c_3 : Ref sig .tc := ⟨.hbm, 35, rfl⟩
abbrev main_v19 : Ref sig .tc := ⟨.hbm, 36, rfl⟩
abbrev main_v20 : Ref sig .tc := ⟨.hbm, 37, rfl⟩
abbrev main_c_4 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_cst : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_c_5 : Ref sig .tc := ⟨.hbm, 50, rfl⟩
abbrev main_v31 : Ref sig .tc := ⟨.hbm, 51, rfl⟩
abbrev main_v32 : Ref sig .tc := ⟨.hbm, 52, rfl⟩
abbrev main_c_6 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_cst_7 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_cst_8 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_cst_9 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_cst_10 : Ref sig .tc := ⟨.hbm, 97, rfl⟩
abbrev main_v73 : Ref sig .tc := ⟨.hbm, 98, rfl⟩
abbrev main_v74 : Ref sig .tc := ⟨.hbm, 99, rfl⟩
abbrev main_cst_11 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_cst_12 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_cst_13 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_cst_14 : Ref sig .tc := ⟨.hbm, 114, rfl⟩
abbrev main_v86 : Ref sig .tc := ⟨.hbm, 115, rfl⟩
abbrev main_v87 : Ref sig .tc := ⟨.hbm, 116, rfl⟩
abbrev main_cst_15 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_cst_16 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_cst_17 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩

abbrev nD : Nat := 1
abbrev τ : Topo := Topo.v7x

variable {F : FTy → Type} [FloatOps F]

class Facts₀ : Prop where
  bcast_S100000x1_S100000x128_0_1 : S100000x1.BroadcastsInDim S100000x128 (![0, 1] : Fin 2 → Fin S100000x128.rank)
  bcast_S_S600000 : S_.BroadcastsInDim S600000 (![] : Fin 0 → Fin S600000.rank)
  bcast_S600000_S600000x1_0 : S600000.BroadcastsInDim S600000x1 (![0] : Fin 1 → Fin S600000x1.rank)
  bcast_S50000x1_S50000x128_0_1 : S50000x1.BroadcastsInDim S50000x128 (![0, 1] : Fin 2 → Fin S50000x128.rank)
  bcast_S600000x1_S600000x128_0_1 : S600000x1.BroadcastsInDim S600000x128 (![0, 1] : Fin 2 → Fin S600000x128.rank)
  bcast_S_S100000x128 : S_.BroadcastsInDim S100000x128 (![] : Fin 0 → Fin S100000x128.rank)
  bcast_S_S50000x128 : S_.BroadcastsInDim S50000x128 (![] : Fin 0 → Fin S50000x128.rank)
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1x128_S50000x128_0_1 : S1x128.BroadcastsInDim S50000x128 (![0, 1] : Fin 2 → Fin S50000x128.rank)
  reducesTo_S100000x128_S100000_d1 : S100000x128.ReducesTo [1] S100000
  h_S_ : 0 < S_.numel
  bcast_S100000_S100000x1_0 : S100000.BroadcastsInDim S100000x1 (![0] : Fin 1 → Fin S100000x1.rank)
  bcast_S_S100000x1 : S_.BroadcastsInDim S100000x1 (![] : Fin 0 → Fin S100000x1.rank)
  reducesTo_S50000x128_S50000_d1 : S50000x128.ReducesTo [1] S50000
  bcast_S50000_S50000x1_0 : S50000.BroadcastsInDim S50000x1 (![0] : Fin 1 → Fin S50000x1.rank)
  bcast_S_S50000x1 : S_.BroadcastsInDim S50000x1 (![] : Fin 0 → Fin S50000x1.rank)
  gather_S100000x128_S600000x1_S600000x128_1_0_n_n_0_1_1128_wf : GatherDims.WF S100000x128 S600000x1 S600000x128 [1] [0] [] [0] [] 1 ![1, 128]
  gather_S50000x128_S600000x1_S600000x128_1_0_n_n_0_1_1128_wf : GatherDims.WF S50000x128 S600000x1 S600000x128 [1] [0] [] [0] [] 1 ![1, 128]
  scatter_S100000x128_S600000x1_S600000x128_1_0_0_1_wf : ScatterDims.WF S100000x128 S600000x1 S600000x128 [1] [0] [0] 1
  scatter_S50000x128_S600000x1_S600000x128_1_0_0_1_wf : ScatterDims.WF S50000x128 S600000x1 S600000x128 [1] [0] [0] 1
  dot_S100000x128_S128x128_S100000x128_1_0_0_1_n_n_wf : DotDims.WF S100000x128 S128x128 S100000x128 [1] [0] [0] [1] [] []
  dot_S50000x128_S128x128_S50000x128_1_0_0_1_n_n_wf : DotDims.WF S50000x128 S128x128 S50000x128 [1] [0] [0] [1] [] []

variable [Facts₀]

def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.LibRowIndex.lean ====
/-
  Rows indexed by data: a scatter-add of rows and a gather of rows, read at an index.

  `x.at[idx].add(upd)` over the rows of an `[R, C]` table (one row index per update row, carried as an `[N, 1]` array of
  words) is, at the ideal values, the table's entry plus the sum of the update rows whose index IS that row: the index
  word is read signed and NOT clamped, so a word outside `[0, R)` names no row and its update is dropped. The same
  for a flat `[R]` table of scalars. `x[idx]` over the rows of an `[R, C]` table reads row `min (toNat idx) (R - 1)`: the
  word read signed and CLAMPED into `[0, R - 1]`. The two meet where it matters: a word that names a row for the
  scatter names the same row for the gather (`clampRow_of_eq`).
-/
import Idealize.ShloMosaic.PureOps.Ideal
import Idealize.ShloMosaic.Lib.ValueIdx

noncomputable section

open scoped BigOperators

namespace Cert.RowIndex

open Idealize.ShloMosaic Idealize.ShloMosaic.ValueIdx

/-! ## The dimension numbers -/

/-- A scatter of `[N, C]` update rows into the rows of an `[R, C]` table, the row named by an `[N, 1]` array of words. -/
abbrev rowScatter (R C N : Nat) (wf : ScatterDims.WF ⟨2, ![R, C]⟩ ⟨2, ![N, 1]⟩ ⟨2, ![N, C]⟩ [1] [0] [0] 1) :
    ScatterDims ⟨2, ![R, C]⟩ ⟨2, ![N, 1]⟩ ⟨2, ![N, C]⟩ where
  updateWindowDims := [1]
  insertedWindowDims := [0]
  scatterDimsToOperandDims := [0]
  indexVectorDim := 1
  wf := wf

variable {R C N w : Nat}

section Scatter
variable (wf : ScatterDims.WF ⟨2, ![R, C]⟩ ⟨2, ![N, 1]⟩ ⟨2, ![N, C]⟩ [1] [0] [0] 1)
  (j : (⟨2, ![N, C]⟩ : Shape).Idx) (idx : IVec ⟨2, ![N, 1]⟩ w)

theorem rowScatter_start0 : (rowScatter R C N wf).start j idx 0 = (idx (ix2 (j 0) (0 : Fin 1))).toInt := by
  unfold ScatterDims.start
  rw [dif_pos (show (0 : Fin 2) ∈ (rowScatter R C N wf).scatterDimsToOperandDims from List.mem_singleton.mpr rfl)]
  have hsi : (rowScatter R C N wf).siIdx j ⟨List.idxOf (0 : Fin 2) (rowScatter R C N wf).scatterDimsToOperandDims,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

theorem rowScatter_start1 : (rowScatter R C N wf).start j idx 1 = 0 := by
  unfold ScatterDims.start
  rw [dif_neg (show ¬ (1 : Fin 2) ∈ (rowScatter R C N wf).scatterDimsToOperandDims from
    (by decide : ¬ (1 : Fin 2) ∈ ([0] : List (Fin 2))))]

theorem rowScatter_window0 : (rowScatter R C N wf).window j 0 = 0 := by
  unfold ScatterDims.window
  rw [dif_neg (show ¬ (0 : Fin 2) ∈ (rowScatter R C N wf).sKept from
    (by decide : ¬ (0 : Fin 2) ∈ ([1] : List (Fin 2))))]

theorem rowScatter_window1 : (rowScatter R C N wf).window j 1 = (j 1).val := by
  unfold ScatterDims.window
  rw [dif_pos (show (1 : Fin 2) ∈ (rowScatter R C N wf).sKept from
    (by decide : (1 : Fin 2) ∈ ([1] : List (Fin 2))))]
  rfl

/-- An update row lands on the table row its index word names, column for column; a word outside `[0, R)` lands nowhere. -/
theorem rowScatter_resultIdx?_eq_some_iff (i : (⟨2, ![R, C]⟩ : Shape).Idx) :
    (rowScatter R C N wf).resultIdx? j idx = some i
      ↔ (idx (ix2 (j 0) (0 : Fin 1))).toInt = ((i 0).val : ℤ) ∧ (j 1).val = (i 1).val := by
  have hs0 := rowScatter_start0 wf j idx
  have hs1 := rowScatter_start1 wf j idx
  have hw0 := rowScatter_window0 wf j
  have hw1 := rowScatter_window1 wf j
  have hi0 := idx2_lt0 i
  have hi1 := idx2_lt1 i
  have hj1 := idx2_lt1 j
  unfold ScatterDims.resultIdx?
  split
  · rename_i h
    rw [Option.some.injEq]
    constructor
    · intro e
      have e0 : ((rowScatter R C N wf).start j idx 0 + ((rowScatter R C N wf).window j 0 : ℤ)).toNat = (i 0).val :=
        congrArg (fun f : (⟨2, ![R, C]⟩ : Shape).Idx => (f 0).val) e
      have e1 : ((rowScatter R C N wf).start j idx 1 + ((rowScatter R C N wf).window j 1 : ℤ)).toNat = (i 1).val :=
        congrArg (fun f : (⟨2, ![R, C]⟩ : Shape).Idx => (f 1).val) e
      have h0 := (h 0).1
      rw [hs0, hw0] at e0 h0
      rw [hs1, hw1] at e1
      constructor <;> omega
    · rintro ⟨e0, e1⟩
      funext a
      refine Fin.ext ?_
      match a with
      | ⟨0, _⟩ =>
        show ((rowScatter R C N wf).start j idx 0 + ((rowScatter R C N wf).window j 0 : ℤ)).toNat = (i 0).val
        rw [hs0, hw0]; omega
      | ⟨1, _⟩ =>
        show ((rowScatter R C N wf).start j idx 1 + ((rowScatter R C N wf).window j 1 : ℤ)).toNat = (i 1).val
        rw [hs1, hw1]; omega
  · rename_i h
    constructor
    · intro e; cases e
    · rintro ⟨e0, e1⟩
      exfalso; apply h
      intro a
      match a with
      | ⟨0, _⟩ =>
        show 0 ≤ (rowScatter R C N wf).start j idx 0 + ((rowScatter R C N wf).window j 0 : ℤ)
          ∧ (rowScatter R C N wf).start j idx 0 + ((rowScatter R C N wf).window j 0 : ℤ) < (R : ℤ)
        rw [hs0, hw0]; omega
      | ⟨1, _⟩ =>
        show 0 ≤ (rowScatter R C N wf).start j idx 1 + ((rowScatter R C N wf).window j 1 : ℤ)
          ∧ (rowScatter R C N wf).start j idx 1 + ((rowScatter R C N wf).window j 1 : ℤ) < (C : ℤ)
        rw [hs1, hw1]; omega

/-- THE ROW SCATTER-ADD READ AT `(g, c)`, at the ideal values: the table's entry plus the sum, over the update rows whose
    index word is `g`, of their entry in column `c`. -/
theorem rowScatterAdd_apply (x : FVec Ideal ⟨2, ![R, C]⟩ .f32) (upd : FVec Ideal ⟨2, ![N, C]⟩ .f32) (g : Fin R) (c : Fin C) :
    Host.scatterAdd (F := Ideal) (rowScatter R C N wf) x idx upd (ix2 g c)
      = x (ix2 g c) + ∑ n ∈ Finset.univ.filter (fun n : Fin N => (idx (ix2 n (0 : Fin 1))).toInt = (g.val : ℤ)), upd (ix2 n c) := by
  show x (ix2 g c) + ∑ j ∈ Finset.univ.filter (fun j => (rowScatter R C N wf).resultIdx? j idx = some (ix2 g c)), upd j = _
  congr 1
  rw [Finset.sum_filter, sum_idx2, Finset.sum_filter]
  refine Finset.sum_congr rfl fun n _ => ?_
  by_cases hn : (idx (ix2 n (0 : Fin 1))).toInt = (g.val : ℤ)
  · rw [if_pos hn]
    rw [Finset.sum_eq_single c]
    · rw [if_pos ((rowScatter_resultIdx?_eq_some_iff wf (ix2 n c) idx (ix2 g c)).2 ⟨hn, rfl⟩)]
    · intro b _ hb
      rw [if_neg]
      intro h
      exact hb (Fin.ext ((rowScatter_resultIdx?_eq_some_iff wf (ix2 n b) idx (ix2 g c)).1 h).2)
    · intro h; exact absurd (Finset.mem_univ c) h
  · rw [if_neg hn]
    refine Finset.sum_eq_zero fun b _ => ?_
    rw [if_neg]
    intro h
    exact hn ((rowScatter_resultIdx?_eq_some_iff wf (ix2 n b) idx (ix2 g c)).1 h).1

end Scatter

/-! ## The flat table: one scalar per row -/

/-- A scatter of `[N]` scalars into an `[R]` table, the entry named by an `[N, 1]` array of words. -/
abbrev flatScatter (R N : Nat) (wf : ScatterDims.WF ⟨1, ![R]⟩ ⟨2, ![N, 1]⟩ ⟨1, ![N]⟩ [] [0] [0] 1) :
    ScatterDims ⟨1, ![R]⟩ ⟨2, ![N, 1]⟩ ⟨1, ![N]⟩ where
  updateWindowDims := []
  insertedWindowDims := [0]
  scatterDimsToOperandDims := [0]
  indexVectorDim := 1
  wf := wf

section Flat
variable (wf : ScatterDims.WF ⟨1, ![R]⟩ ⟨2, ![N, 1]⟩ ⟨1, ![N]⟩ [] [0] [0] 1)
  (j : (⟨1, ![N]⟩ : Shape).Idx) (idx : IVec ⟨2, ![N, 1]⟩ w)

theorem flatScatter_start0 : (flatScatter R N wf).start j idx 0 = (idx (ix2 (j 0) (0 : Fin 1))).toInt := by
  unfold ScatterDims.start
  rw [dif_pos (show (0 : Fin 1) ∈ (flatScatter R N wf).scatterDimsToOperandDims from List.mem_singleton.mpr rfl)]
  have hsi : (flatScatter R N wf).siIdx j ⟨List.idxOf (0 : Fin 1) (flatScatter R N wf).scatterDimsToOperandDims,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

theorem flatScatter_window0 : (flatScatter R N wf).window j 0 = 0 := by
  unfold ScatterDims.window
  rw [dif_neg (show ¬ (0 : Fin 1) ∈ (flatScatter R N wf).sKept from
    (by decide : ¬ (0 : Fin 1) ∈ ([] : List (Fin 1))))]

/-- A scalar update lands on the entry its index word names; a word outside `[0, R)` lands nowhere. -/
theorem flatScatter_resultIdx?_eq_some_iff (i : (⟨1, ![R]⟩ : Shape).Idx) :
    (flatScatter R N wf).resultIdx? j idx = some i ↔ (idx (ix2 (j 0) (0 : Fin 1))).toInt = ((i 0).val : ℤ) := by
  have hs0 := flatScatter_start0 wf j idx
  have hw0 := flatScatter_window0 wf j
  have hi0 : (i 0).val < R := (i 0).isLt
  unfold ScatterDims.resultIdx?
  split
  · rename_i h
    rw [Option.some.injEq]
    constructor
    · intro e
      have e0 : ((flatScatter R N wf).start j idx 0 + ((flatScatter R N wf).window j 0 : ℤ)).toNat = (i 0).val :=
        congrArg (fun f : (⟨1, ![R]⟩ : Shape).Idx => (f 0).val) e
      have h0 := (h 0).1
      rw [hs0, hw0] at e0 h0
      omega
    · intro e0
      funext a
      refine Fin.ext ?_
      match a with
      | ⟨0, _⟩ =>
        show ((flatScatter R N wf).start j idx 0 + ((flatScatter R N wf).window j 0 : ℤ)).toNat = (i 0).val
        rw [hs0, hw0]; omega
  · rename_i h
    constructor
    · intro e; cases e
    · intro e0
      exfalso; apply h
      intro a
      match a with
      | ⟨0, _⟩ =>
        show 0 ≤ (flatScatter R N wf).start j idx 0 + ((flatScatter R N wf).window j 0 : ℤ)
          ∧ (flatScatter R N wf).start j idx 0 + ((flatScatter R N wf).window j 0 : ℤ) < (R : ℤ)
        rw [hs0, hw0]; omega

/-- THE FLAT SCATTER-ADD READ AT `g`, at the ideal values: the table's entry plus the sum of the updates whose index word is `g`. -/
theorem flatScatterAdd_apply (x : FVec Ideal ⟨1, ![R]⟩ .f32) (upd : FVec Ideal ⟨1, ![N]⟩ .f32) (g : Fin R) :
    Host.scatterAdd (F := Ideal) (flatScatter R N wf) x idx upd (ix1 g)
      = x (ix1 g) + ∑ n ∈ Finset.univ.filter (fun n : Fin N => (idx (ix2 n (0 : Fin 1))).toInt = (g.val : ℤ)), upd (ix1 n) := by
  show x (ix1 g) + ∑ j ∈ Finset.univ.filter (fun j => (flatScatter R N wf).resultIdx? j idx = some (ix1 g)), upd j = _
  congr 1
  refine Finset.sum_bij (fun (j : (⟨1, ![N]⟩ : Shape).Idx) _ => (j 0 : Fin N)) ?_ ?_ ?_ ?_
  · intro j hj
    exact Finset.mem_filter.2 ⟨Finset.mem_univ _,
      (flatScatter_resultIdx?_eq_some_iff wf j idx (ix1 g)).1 (Finset.mem_filter.1 hj).2⟩
  · intro a _ b _ hab
    rw [eq_ix1 a, eq_ix1 b]
    exact congrArg ix1 hab
  · intro n hn
    exact ⟨ix1 n, Finset.mem_filter.2 ⟨Finset.mem_univ _,
      (flatScatter_resultIdx?_eq_some_iff wf (ix1 n) idx (ix1 g)).2 (Finset.mem_filter.1 hn).2⟩, rfl⟩
  · intro j _
    exact congrArg upd (eq_ix1 j)

end Flat

/-! ## The row gather -/

/-- A gather of whole rows of an `[R, C]` table, the row named by an `[N, 1]` array of words. -/
abbrev rowGather (R C N : Nat) (wf : GatherDims.WF ⟨2, ![R, C]⟩ ⟨2, ![N, 1]⟩ ⟨2, ![N, C]⟩ [1] [0] [] [0] [] 1 ![1, C]) :
    GatherDims ⟨2, ![R, C]⟩ ⟨2, ![N, 1]⟩ ⟨2, ![N, C]⟩ where
  offsetDims := [1]
  collapsedSliceDims := [0]
  operandBatchingDims := []
  startIndicesBatchingDims := []
  startIndexMap := [0]
  indexVectorDim := 1
  sliceSizes := ![1, C]
  wf := wf

/-- The row a word names for a gather from `R` rows: read signed, clamped into `[0, R - 1]`. -/
def clampRow (R : Nat) (hR : 0 < R) {w : Nat} (b : BitVec w) : Fin R := ⟨min b.toInt.toNat (R - 1), by omega⟩

/-- A word that names a row for the scatter (its signed value IS the row) names the same row for the gather. -/
theorem clampRow_of_eq (hR : 0 < R) (b : BitVec w) (g : Fin R) (h : b.toInt = (g.val : ℤ)) : clampRow R hR b = g := by
  refine Fin.ext ?_
  show min b.toInt.toNat (R - 1) = g.val
  have := g.isLt
  omega

/-- THE ROW GATHER READ AT `(n, c)`: the table at row `clampRow` of the `n`-th index word, column `c`. -/
theorem rowGather_apply {α : Type} (hR : 0 < R)
    (wf : GatherDims.WF ⟨2, ![R, C]⟩ ⟨2, ![N, 1]⟩ ⟨2, ![N, C]⟩ [1] [0] [] [0] [] 1 ![1, C])
    (x : (⟨2, ![R, C]⟩ : Shape).Idx → α) (idx : IVec ⟨2, ![N, 1]⟩ w) (n : Fin N) (c : Fin C) :
    Host.gather (rowGather R C N wf) x idx (ix2 n c) = x (ix2 (clampRow R hR (idx (ix2 n (0 : Fin 1)))) c) := by
  unfold Host.gather
  congr 1
  funext a
  refine Fin.ext ?_
  match a with
  | ⟨0, _⟩ =>
    show (rowGather R C N wf).start (ix2 n c) idx 0 + (rowGather R C N wf).batchCoord (ix2 n c) 0
      + (rowGather R C N wf).offCoord (ix2 n c) 0 = min (idx (ix2 n (0 : Fin 1))).toInt.toNat (R - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGather R C N wf).startIndexMap from List.mem_singleton.mpr rfl)]
    have hsi : (rowGather R C N wf).siIdx (ix2 n c) ⟨List.idxOf (0 : Fin 2) (rowGather R C N wf).startIndexMap,
        List.idxOf_lt_length_iff.2 (List.mem_singleton.mpr rfl)⟩ = ix2 n (0 : Fin 1) := by
      funext b; refine Fin.ext ?_
      match b with
      | ⟨0, _⟩ => rfl
      | ⟨1, _⟩ => rfl
    rw [hsi]
    rfl
  | ⟨1, _⟩ =>
    show (rowGather R C N wf).start (ix2 n c) idx 1 + (rowGather R C N wf).batchCoord (ix2 n c) 1
      + (rowGather R C N wf).offCoord (ix2 n c) 1 = c.val
    rw [GatherDims.batchCoord_eq_zero _ _ _ List.not_mem_nil]
    unfold GatherDims.start
    rw [dif_neg (show ¬ (1 : Fin 2) ∈ (rowGather R C N wf).startIndexMap from
      (by decide : ¬ (1 : Fin 2) ∈ ([0] : List (Fin 2))))]
    unfold GatherDims.offCoord
    rw [dif_pos (show (1 : Fin 2) ∈ (rowGather R C N wf).sKept from
      (by decide : (1 : Fin 2) ∈ ([1] : List (Fin 2))))]
    simp only [Nat.zero_add, Nat.add_zero]
    rfl

/-! ## Counting on the extended reals -/

/-- A sum of copies of one extended real is the count times it — at the infinities too, and for the empty sum (`0 · v = 0`):
    a product by a nonnegative factor distributes over a sum of nonnegative terms, which is all the induction needs. -/
theorem sum_const_eq_card_mul {ι : Type} [DecidableEq ι] (s : Finset ι) (v : EReal) :
    ∑ _n ∈ s, v = (∑ _n ∈ s, (1 : EReal)) * v := by
  induction s using Finset.induction_on with
  | empty => simp
  | insert a s ha ih =>
    rw [Finset.sum_insert ha, Finset.sum_insert ha, ih,
      EReal.right_distrib_of_nonneg zero_le_one (Finset.sum_nonneg fun _ _ => zero_le_one), one_mul]

end Cert.RowIndex

end
-- ==== Proof.Spec.lean ====
/-
  What the two programs compute, as one function of the argument arrays, at the ideal values.

  A bipartite graph of 600000 edges joins 100000 user rows and 50000 item rows of 128 features. Edge `e` names its user row
  and its item row twice: by a word that is CLAMPED into the table when a row is READ (`gu`, `gi`: the endpoint words
  after a negative word is wrapped by the table's height), and by the raw endpoint word when a row is ADDED INTO (`su`,
  `si`): a raw word outside the table adds into no row.

  * the edge's message is the product, feature by feature, of the two endpoint rows, each scaled by its node's norm;
  * a user row collects (a) the item rows of its edges, each scaled by the edge's norm, and (b) the messages of its edges;
    an item row likewise with the user rows — four sums over the edges whose raw word IS the row;
  * each node row then goes through one dense step: `(feat + collected rows) · W1ᵀ + b1 + collected messages · W2ᵀ + b2`,
    a leaky rectifier of slope `0.2`, and a division by the row's Euclidean norm floored at `1e-12`.

  The dense step sees one row at a time (`denseRow`), which is why a block of rows of the result is that function of the
  same block of rows of its operands.
-/
import Idealize.ShloMosaic.PureOps.Ideal
import Idealize.ShloMosaic.PureOps.Ideal.Laws
import Idealize.ShloMosaic.Lib.ValueIdx
import proofs.«122322_j52561809769220_2_alg».proof.Proof.LibRowIndex

noncomputable section

open scoped BigOperators

namespace Cert.Spec

open Idealize.ShloMosaic Idealize.ShloMosaic.ValueIdx Cert.RowIndex

/-- An `[a, b]` table of extended reals. -/
abbrev Tab (a b : Nat) := FVec Ideal ⟨2, ![a, b]⟩ .f32
/-- One index word per edge, as an `[600000, 1]` column. -/
abbrev Words := IVec ⟨2, ![600000, 1]⟩ 32

/-! ## The edge stage -/

section Edges
variable (fu : Tab 100000 128) (fi : Tab 50000 128) (nu : Tab 100000 1) (ni : Tab 50000 1) (nui niu : Tab 600000 1)
  (gu gi su si : Words)

/-- The user row edge `e` reads. -/
def userRow (e : Fin 600000) : Fin 100000 := clampRow 100000 (by decide) (gu (ix2 e (0 : Fin 1)))
/-- The item row edge `e` reads. -/
def itemRow (e : Fin 600000) : Fin 50000 := clampRow 50000 (by decide) (gi (ix2 e (0 : Fin 1)))

/-- The edge's message: the user row scaled by the user's norm times the item row scaled by the item's norm. -/
def edgeMsg (e : Fin 600000) (d : Fin 128) : EReal :=
  (fu (ix2 (userRow gu e) d) * nu (ix2 (userRow gu e) (0 : Fin 1)))
    * (fi (ix2 (itemRow gi e) d) * ni (ix2 (itemRow gi e) (0 : Fin 1)))

/-- The edges whose raw word names row `g`. -/
def edgesAt (s : Words) (g : Nat) : Finset (Fin 600000) :=
  Finset.univ.filter (fun e : Fin 600000 => (s (ix2 e (0 : Fin 1))).toInt = (g : ℤ))

/-- What user row `g` collects of item rows: over its edges, the item row scaled by the edge's norm. -/
def aggUser (g : Fin 100000) (d : Fin 128) : EReal :=
  ∑ e ∈ edgesAt su g.val, fi (ix2 (itemRow gi e) d) * niu (ix2 e (0 : Fin 1))
/-- What user row `g` collects of messages. -/
def msgUser (g : Fin 100000) (d : Fin 128) : EReal :=
  ∑ e ∈ edgesAt su g.val, edgeMsg fu fi nu ni gu gi e d
/-- What item row `g` collects of user rows: over its edges, the user row scaled by the edge's norm. -/
def aggItem (g : Fin 50000) (d : Fin 128) : EReal :=
  ∑ e ∈ edgesAt si g.val, fu (ix2 (userRow gu e) d) * nui (ix2 e (0 : Fin 1))
/-- What item row `g` collects of messages. -/
def msgItem (g : Fin 50000) (d : Fin 128) : EReal :=
  ∑ e ∈ edgesAt si g.val, edgeMsg fu fi nu ni gu gi e d

end Edges

/-! ## The dense step, one row at a time -/

section Dense
variable (w1t w2t : Tab 128 128) (b1 b2 : FVec Ideal ⟨1, ![128]⟩ .f32)

/-- The affine part at feature `j` of a row `x` with collected messages `mr`: `x · w1t + b1 + mr · w2t + b2`, grouped as written. -/
def preAct (x mr : Fin 128 → EReal) (j : Fin 128) : EReal :=
  (((∑ k : Fin 128, x k * w1t (ix2 k j)) + b1 (ix1 j)) + (∑ k : Fin 128, mr k * w2t (ix2 k j))) + b2 (ix1 j)

/-- The leaky rectifier of slope `0.2` (the slope as its binary word: both programs carry the same word). -/
def leaky (h : EReal) : EReal :=
  Scalar.select (Ideal.cmp .ogt h (Ideal.ofBits .f32 0x00000000#32)) h (Ideal.ofBits .f32 0x3E4CCCCD#32 * h)

/-- The rectified row. -/
def act (x mr : Fin 128 → EReal) (j : Fin 128) : EReal := leaky (preAct w1t w2t b1 b2 x mr j)

/-- The dense step's result at feature `j`: the rectified row over its Euclidean norm, the norm floored at `1e-12`'s word. -/
def denseRow (x mr : Fin 128 → EReal) (j : Fin 128) : EReal :=
  Ideal.div (act w1t w2t b1 b2 x mr j)
    (max (Ideal.sqrt (∑ k : Fin 128, act w1t w2t b1 b2 x mr k * act w1t w2t b1 b2 x mr k)) (Ideal.ofBits .f32 0x2B8CBCCC#32))

end Dense

/-! ## The index words and the weights, as both programs spell them -/

/-- A vector of one word per edge. -/
abbrev EdgeWords := IVec ⟨1, ![600000]⟩ 32

/-- The words rows are READ by: a negative endpoint word wrapped once by the table's height `R`, stood up as a column. -/
def readWords (R : BitVec 32) (x : EdgeWords) : Words :=
  broadcastInDim ⟨2, ![600000, 1]⟩ ![0] (by decide)
    (select (cmpi .slt x (broadcastInDim ⟨1, ![600000]⟩ ![] (by decide) (constantI ⟨0, ![]⟩ 32 0#32)))
      (addi x (broadcastInDim ⟨1, ![600000]⟩ ![] (by decide) (constantI ⟨0, ![]⟩ 32 R))) x)

/-- The words rows are ADDED INTO by: the endpoint words as they are, stood up as a column. -/
def addWords (x : EdgeWords) : Words := broadcastInDim ⟨2, ![600000, 1]⟩ ![0] (by decide) x

/-- A weight matrix transposed. -/
def tr (w : Tab 128 128) : Tab 128 128 := transpose ⟨2, ![128, 128]⟩ [1, 0] w (by decide)

/-! ## The two results -/

section Results
variable (fu : Tab 100000 128) (fi : Tab 50000 128) (nu : Tab 100000 1) (ni : Tab 50000 1) (nui niu : Tab 600000 1)
  (w1t w2t : Tab 128 128) (b1 b2 : FVec Ideal ⟨1, ![128]⟩ .f32) (gu gi su si : Words)

/-- The user table after the layer. -/
def outUser : Tab 100000 128 := fun i =>
  denseRow w1t w2t b1 b2 (fun k => fu (ix2 (i 0) k) + aggUser fi niu gi su (i 0) k)
    (fun k => msgUser fu fi nu ni gu gi su (i 0) k) (i 1)

/-- The item table after the layer. -/
def outItem : Tab 50000 128 := fun i =>
  denseRow w1t w2t b1 b2 (fun k => fi (ix2 (i 0) k) + aggItem fu nui gu si (i 0) k)
    (fun k => msgItem fu fi nu ni gu gi si (i 0) k) (i 1)

/-- The user result of the argument arrays (in the programs' argument order; `nui` does not reach it). -/
def userResult (x0 : Tab 100000 128) (x1 : Tab 50000 128) (x2 : Tab 100000 1) (x3 : Tab 50000 1) (x5 : Tab 600000 1)
    (x6 : Tab 128 128) (x7 : FVec Ideal ⟨1, ![128]⟩ .f32) (x8 : Tab 128 128) (x9 : FVec Ideal ⟨1, ![128]⟩ .f32)
    (x10 x11 : EdgeWords) : Tab 100000 128 :=
  outUser x0 x1 x2 x3 x5 (tr x6) (tr x8) x7 x9 (readWords 100000#32 x10) (readWords 50000#32 x11) (addWords x10)

/-- The item result of the argument arrays (`niu` does not reach it). -/
def itemResult (x0 : Tab 100000 128) (x1 : Tab 50000 128) (x2 : Tab 100000 1) (x3 : Tab 50000 1) (x4 : Tab 600000 1)
    (x6 : Tab 128 128) (x7 : FVec Ideal ⟨1, ![128]⟩ .f32) (x8 : Tab 128 128) (x9 : FVec Ideal ⟨1, ![128]⟩ .f32)
    (x10 x11 : EdgeWords) : Tab 50000 128 :=
  outItem x0 x1 x2 x3 x4 (tr x6) (tr x8) x7 x9 (readWords 100000#32 x10) (readWords 50000#32 x11) (addWords x11)

end Results

end Cert.Spec

end
-- ==== Proof.RefValue.lean ====
/-
  The reference program computes the specification.

  Stage by stage: the index words the reference builds are the specification's (a wrapped word where a row is read, the raw
  word where a row is added into); an edge's gathered, scaled rows multiply to the edge's message; each of the four
  scatter-adds, started from the zero table, is the sum over the edges whose raw word is the row; and the dense step on a
  node row is the specification's function of that row.
-/
import proofs.«122322_j52561809769220_2_alg».proof.Proof.Gen.ReferenceIdeal.Read
import proofs.«122322_j52561809769220_2_alg».proof.Proof.Spec
import proofs.«122322_j52561809769220_2_alg».proof.Proof.LibRowIndex
import Idealize.ShloMosaic.Lib.ValueIdx
import Idealize.ShloMosaic.PureOps.Ideal.Laws

noncomputable section

open scoped BigOperators

namespace Cert.ReferenceIdeal.RefValue

open Cert.ReferenceIdeal Cert.ReferenceIdeal.Read Idealize.ShloMosaic Idealize.ShloMosaic.ValueIdx Cert.RowIndex Cert

/-! ## The index words and the transposed weights are the specification's -/

section Words
variable (x10 x11 : Spec.EdgeWords) (x6 x8 : Spec.Tab 128 128)

theorem v7_eq : val_main_v7 (F := Ideal) x10 = Spec.readWords 100000#32 x10 := rfl
theorem v36_eq : val_main_v36 (F := Ideal) x10 = Spec.readWords 100000#32 x10 := rfl
theorem v16_eq : val_main_v16 (F := Ideal) x11 = Spec.readWords 50000#32 x11 := rfl
theorem v24_eq : val_main_v24 (F := Ideal) x11 = Spec.readWords 50000#32 x11 := rfl
theorem v29_eq : val_main_v29 (F := Ideal) x10 = Spec.addWords x10 := rfl
theorem v44_eq : val_main_v44 (F := Ideal) x10 = Spec.addWords x10 := rfl
theorem v41_eq : val_main_v41 (F := Ideal) x11 = Spec.addWords x11 := rfl
theorem v47_eq : val_main_v47 (F := Ideal) x11 = Spec.addWords x11 := rfl
theorem v50_eq : val_main_v50 (F := Ideal) x6 = Spec.tr x6 := rfl
theorem v62_eq : val_main_v62 (F := Ideal) x6 = Spec.tr x6 := rfl
theorem v55_eq : val_main_v55 (F := Ideal) x8 = Spec.tr x8 := rfl
theorem v67_eq : val_main_v67 (F := Ideal) x8 = Spec.tr x8 := rfl

end Words

/-! ## The layout operations' index functions, at a pair of coordinates

  Each layout operation of the reference reads its operand at an index computed from the result's index. At a result
  index given by its two coordinates these are again indices given by coordinates. -/

section Idx

/-- A column broadcast along the features reads the column's entry of the same row. -/
theorem idx_v0 (r : Fin 100000) (d : Fin 128) : idx_main_v0 (ix2 r d) = ix2 r (0 : Fin 1) :=
  funext fun a => Fin.ext (by match a with | ⟨0, _⟩ => rfl | ⟨1, _⟩ => rfl)
theorem idx_v9 (r : Fin 50000) (d : Fin 128) : idx_main_v9 (ix2 r d) = ix2 r (0 : Fin 1) :=
  funext fun a => Fin.ext (by match a with | ⟨0, _⟩ => rfl | ⟨1, _⟩ => rfl)
theorem idx_v26 (e : Fin 600000) (d : Fin 128) : idx_main_v26 (ix2 e d) = ix2 e (0 : Fin 1) :=
  funext fun a => Fin.ext (by match a with | ⟨0, _⟩ => rfl | ⟨1, _⟩ => rfl)
theorem idx_v38 (e : Fin 600000) (d : Fin 128) : idx_main_v38 (ix2 e d) = ix2 e (0 : Fin 1) :=
  funext fun a => Fin.ext (by match a with | ⟨0, _⟩ => rfl | ⟨1, _⟩ => rfl)

end Idx

/-! ## The edge stage -/

section Edges
variable (x0 : Spec.Tab 100000 128) (x1 : Spec.Tab 50000 128) (x2 : Spec.Tab 100000 1) (x3 : Spec.Tab 50000 1)
  (x4 x5 : Spec.Tab 600000 1) (x10 x11 : Spec.EdgeWords)

/-- The scaled user table gathered by the wrapped user words: the edge's user row, scaled by that user's norm. -/
theorem v8_apply (e : Fin 600000) (d : Fin 128) :
    val_main_v8 (F := Ideal) x0 x2 x10 (ix2 e d)
      = x0 (ix2 (Spec.userRow (Spec.readWords 100000#32 x10) e) d)
          * x2 (ix2 (Spec.userRow (Spec.readWords 100000#32 x10) e) (0 : Fin 1)) := by
  unfold val_main_v8
  rw [v7_eq]
  refine (rowGather_apply (R := 100000) (C := 128) (N := 600000) (by decide)
    Facts₀.gather_S100000x128_S600000x1_S600000x128_1_0_n_n_0_1_1128_wf _ _ e d).trans ?_
  rw [val_main_v1_apply, val_main_v0_apply, idx_v0]
  rfl

/-- The scaled item table gathered by the wrapped item words. -/
theorem v17_apply (e : Fin 600000) (d : Fin 128) :
    val_main_v17 (F := Ideal) x1 x3 x11 (ix2 e d)
      = x1 (ix2 (Spec.itemRow (Spec.readWords 50000#32 x11) e) d)
          * x3 (ix2 (Spec.itemRow (Spec.readWords 50000#32 x11) e) (0 : Fin 1)) := by
  unfold val_main_v17
  rw [v16_eq]
  refine (rowGather_apply (R := 50000) (C := 128) (N := 600000) (by decide)
    Facts₀.gather_S50000x128_S600000x1_S600000x128_1_0_n_n_0_1_1128_wf _ _ e d).trans ?_
  rw [val_main_v10_apply, val_main_v9_apply, idx_v9]
  rfl

/-- The product of the two gathered rows is the edge's message. -/
theorem v18_apply (e : Fin 600000) (d : Fin 128) :
    val_main_v18 (F := Ideal) x0 x1 x2 x3 x10 x11 (ix2 e d)
      = Spec.edgeMsg x0 x1 x2 x3 (Spec.readWords 100000#32 x10) (Spec.readWords 50000#32 x11) e d := by
  rw [val_main_v18_apply, v8_apply, v17_apply]
  rfl

/-- The item table gathered by the wrapped item words: the edge's item row. -/
theorem v25_apply (e : Fin 600000) (d : Fin 128) :
    val_main_v25 (F := Ideal) x1 x11 (ix2 e d) = x1 (ix2 (Spec.itemRow (Spec.readWords 50000#32 x11) e) d) := by
  unfold val_main_v25
  rw [v24_eq]
  exact rowGather_apply (R := 50000) (C := 128) (N := 600000) (by decide)
    Facts₀.gather_S50000x128_S600000x1_S600000x128_1_0_n_n_0_1_1128_wf _ _ e d

/-- The edge's item row scaled by the edge's norm. -/
theorem v27_apply (e : Fin 600000) (d : Fin 128) :
    val_main_v27 (F := Ideal) x1 x5 x11 (ix2 e d)
      = x1 (ix2 (Spec.itemRow (Spec.readWords 50000#32 x11) e) d) * x5 (ix2 e (0 : Fin 1)) := by
  rw [val_main_v27_apply, v25_apply, val_main_v26_apply, idx_v26]
  rfl

/-- The user table gathered by the wrapped user words: the edge's user row. -/
theorem v37_apply (e : Fin 600000) (d : Fin 128) :
    val_main_v37 (F := Ideal) x0 x10 (ix2 e d) = x0 (ix2 (Spec.userRow (Spec.readWords 100000#32 x10) e) d) := by
  unfold val_main_v37
  rw [v36_eq]
  exact rowGather_apply (R := 100000) (C := 128) (N := 600000) (by decide)
    Facts₀.gather_S100000x128_S600000x1_S600000x128_1_0_n_n_0_1_1128_wf _ _ e d

/-- The edge's user row scaled by the edge's norm. -/
theorem v39_apply (e : Fin 600000) (d : Fin 128) :
    val_main_v39 (F := Ideal) x0 x4 x10 (ix2 e d)
      = x0 (ix2 (Spec.userRow (Spec.readWords 100000#32 x10) e) d) * x4 (ix2 e (0 : Fin 1)) := by
  rw [val_main_v39_apply, v37_apply, val_main_v38_apply, idx_v38]
  rfl

/-! ## The four scatter-adds: sums over the edges whose raw word is the row -/

/-- What a user row collects of item rows. -/
theorem v30_apply (g : Fin 100000) (d : Fin 128) :
    val_main_v30 (F := Ideal) x1 x5 x10 x11 (ix2 g d)
      = Spec.aggUser x1 x5 (Spec.readWords 50000#32 x11) (Spec.addWords x10) g d := by
  unfold val_main_v30
  rw [v29_eq]
  refine (rowScatterAdd_apply (R := 100000) (C := 128) (N := 600000)
    Facts₀.scatter_S100000x128_S600000x1_S600000x128_1_0_0_1_wf _ _ _ g d).trans ?_
  rw [val_main_v28_apply, val_main_cst_apply, Ideal.ofBits_def, Ideal.ofBits_zero_f32, zero_add]
  unfold Spec.aggUser Spec.edgesAt
  exact Finset.sum_congr rfl fun e _ => v27_apply x1 x5 x11 e d

/-- What an item row collects of user rows. -/
theorem v42_apply (g : Fin 50000) (d : Fin 128) :
    val_main_v42 (F := Ideal) x0 x4 x10 x11 (ix2 g d)
      = Spec.aggItem x0 x4 (Spec.readWords 100000#32 x10) (Spec.addWords x11) g d := by
  unfold val_main_v42
  rw [v41_eq]
  refine (rowScatterAdd_apply (R := 50000) (C := 128) (N := 600000)
    Facts₀.scatter_S50000x128_S600000x1_S600000x128_1_0_0_1_wf _ _ _ g d).trans ?_
  rw [val_main_v40_apply, val_main_cst_7_apply, Ideal.ofBits_def, Ideal.ofBits_zero_f32, zero_add]
  unfold Spec.aggItem Spec.edgesAt
  exact Finset.sum_congr rfl fun e _ => v39_apply x0 x4 x10 e d

/-- What a user row collects of messages. -/
theorem v45_apply (g : Fin 100000) (d : Fin 128) :
    val_main_v45 (F := Ideal) x0 x1 x2 x3 x10 x11 (ix2 g d)
      = Spec.msgUser x0 x1 x2 x3 (Spec.readWords 100000#32 x10) (Spec.readWords 50000#32 x11) (Spec.addWords x10) g d := by
  unfold val_main_v45
  rw [v44_eq]
  refine (rowScatterAdd_apply (R := 100000) (C := 128) (N := 600000)
    Facts₀.scatter_S100000x128_S600000x1_S600000x128_1_0_0_1_wf _ _ _ g d).trans ?_
  rw [val_main_v43_apply, val_main_cst_8_apply, Ideal.ofBits_def, Ideal.ofBits_zero_f32, zero_add]
  unfold Spec.msgUser Spec.edgesAt
  exact Finset.sum_congr rfl fun e _ => v18_apply x0 x1 x2 x3 x10 x11 e d

/-- What an item row collects of messages. -/
theorem v48_apply (g : Fin 50000) (d : Fin 128) :
    val_main_v48 (F := Ideal) x0 x1 x2 x3 x10 x11 (ix2 g d)
      = Spec.msgItem x0 x1 x2 x3 (Spec.readWords 100000#32 x10) (Spec.readWords 50000#32 x11) (Spec.addWords x11) g d := by
  unfold val_main_v48
  rw [v47_eq]
  refine (rowScatterAdd_apply (R := 50000) (C := 128) (N := 600000)
    Facts₀.scatter_S50000x128_S600000x1_S600000x128_1_0_0_1_wf _ _ _ g d).trans ?_
  rw [val_main_v46_apply, val_main_cst_9_apply, Ideal.ofBits_def, Ideal.ofBits_zero_f32, zero_add]
  unfold Spec.msgItem Spec.edgesAt
  exact Finset.sum_congr rfl fun e _ => v18_apply x0 x1 x2 x3 x10 x11 e d

end Edges

/-! ## Index functions of the dense step -/

section DenseIdx

/-- The contraction reads the left operand along its row and the right operand down its column. -/
theorem lidx_v51 (r : Fin 100000) (j k : Fin 128) : lidx_main_v51 (ix2 r j) k = ix2 r k :=
  funext fun a => Fin.ext (by match a with | ⟨0, _⟩ => rfl | ⟨1, _⟩ => rfl)
theorem ridx_v51 (r : Fin 100000) (j k : Fin 128) : ridx_main_v51 (ix2 r j) k = ix2 k j :=
  funext fun a => Fin.ext (by match a with | ⟨0, _⟩ => rfl | ⟨1, _⟩ => rfl)
theorem lidx_v56 (r : Fin 100000) (j k : Fin 128) : lidx_main_v56 (ix2 r j) k = ix2 r k :=
  funext fun a => Fin.ext (by match a with | ⟨0, _⟩ => rfl | ⟨1, _⟩ => rfl)
theorem ridx_v56 (r : Fin 100000) (j k : Fin 128) : ridx_main_v56 (ix2 r j) k = ix2 k j :=
  funext fun a => Fin.ext (by match a with | ⟨0, _⟩ => rfl | ⟨1, _⟩ => rfl)
theorem lidx_v63 (r : Fin 50000) (j k : Fin 128) : lidx_main_v63 (ix2 r j) k = ix2 r k :=
  funext fun a => Fin.ext (by match a with | ⟨0, _⟩ => rfl | ⟨1, _⟩ => rfl)
theorem ridx_v63 (r : Fin 50000) (j k : Fin 128) : ridx_main_v63 (ix2 r j) k = ix2 k j :=
  funext fun a => Fin.ext (by match a with | ⟨0, _⟩ => rfl | ⟨1, _⟩ => rfl)
theorem lidx_v68 (r : Fin 50000) (j k : Fin 128) : lidx_main_v68 (ix2 r j) k = ix2 r k :=
  funext fun a => Fin.ext (by match a with | ⟨0, _⟩ => rfl | ⟨1, _⟩ => rfl)
theorem ridx_v68 (r : Fin 50000) (j k : Fin 128) : ridx_main_v68 (ix2 r j) k = ix2 k j :=
  funext fun a => Fin.ext (by match a with | ⟨0, _⟩ => rfl | ⟨1, _⟩ => rfl)

/-- A bias laid out as a one-row table and repeated down the rows reads the bias at the feature. -/
theorem idx_v53 (r : Fin 100000) (j : Fin 128) : idx_main_v53 (ix2 r j) = ix2 (0 : Fin 1) j :=
  funext fun a => Fin.ext (by match a with | ⟨0, _⟩ => rfl | ⟨1, _⟩ => rfl)
theorem idx_v52 (u : Fin 1) (j : Fin 128) : idx_main_v52 (ix2 u j) = ix1 j :=
  funext fun a => Fin.ext (by match a with | ⟨0, _⟩ => rfl)
theorem idx_v59 (r : Fin 100000) (j : Fin 128) : idx_main_v59 (ix2 r j) = ix2 (0 : Fin 1) j :=
  funext fun a => Fin.ext (by match a with | ⟨0, _⟩ => rfl | ⟨1, _⟩ => rfl)
theorem idx_v58 (u : Fin 1) (j : Fin 128) : idx_main_v58 (ix2 u j) = ix1 j :=
  funext fun a => Fin.ext (by match a with | ⟨0, _⟩ => rfl)
theorem idx_v65 (r : Fin 50000) (j : Fin 128) : idx_main_v65 (ix2 r j) = ix2 (0 : Fin 1) j :=
  funext fun a => Fin.ext (by match a with | ⟨0, _⟩ => rfl | ⟨1, _⟩ => rfl)
theorem idx_v64 (u : Fin 1) (j : Fin 128) : idx_main_v64 (ix2 u j) = ix1 j :=
  funext fun a => Fin.ext (by match a with | ⟨0, _⟩ => rfl)
theorem idx_v71 (r : Fin 50000) (j : Fin 128) : idx_main_v71 (ix2 r j) = ix2 (0 : Fin 1) j :=
  funext fun a => Fin.ext (by match a with | ⟨0, _⟩ => rfl | ⟨1, _⟩ => rfl)
theorem idx_v70 (u : Fin 1) (j : Fin 128) : idx_main_v70 (ix2 u j) = ix1 j :=
  funext fun a => Fin.ext (by match a with | ⟨0, _⟩ => rfl)

/-- The row's norm: summed along the row, stood up as a column, repeated along the features. -/
theorem idx_v79 (r : Fin 100000) (k : Fin 128) : idx_main_v79 (ix1 r) k = ix2 r k :=
  funext fun a => Fin.ext (by match a with | ⟨0, _⟩ => rfl | ⟨1, _⟩ => rfl)
theorem idx_v80 (r : Fin 100000) (u : Fin 1) : idx_main_v80 (ix2 r u) = ix1 r :=
  funext fun a => Fin.ext (by match a with | ⟨0, _⟩ => rfl)
theorem idx_v84 (r : Fin 100000) (j : Fin 128) : idx_main_v84 (ix2 r j) = ix2 r (0 : Fin 1) :=
  funext fun a => Fin.ext (by match a with | ⟨0, _⟩ => rfl | ⟨1, _⟩ => rfl)
theorem idx_v92 (r : Fin 50000) (k : Fin 128) : idx_main_v92 (ix1 r) k = ix2 r k :=
  funext fun a => Fin.ext (by match a with | ⟨0, _⟩ => rfl | ⟨1, _⟩ => rfl)
theorem idx_v93 (r : Fin 50000) (u : Fin 1) : idx_main_v93 (ix2 r u) = ix1 r :=
  funext fun a => Fin.ext (by match a with | ⟨0, _⟩ => rfl)
theorem idx_v97 (r : Fin 50000) (j : Fin 128) : idx_main_v97 (ix2 r j) = ix2 r (0 : Fin 1) :=
  funext fun a => Fin.ext (by match a with | ⟨0, _⟩ => rfl | ⟨1, _⟩ => rfl)

end DenseIdx

/-! ## The dense step on a user row -/

section DenseUser
variable (x0 : Spec.Tab 100000 128) (x1 : Spec.Tab 50000 128) (x2 : Spec.Tab 100000 1) (x3 : Spec.Tab 50000 1)
  (x5 : Spec.Tab 600000 1) (x6 : Spec.Tab 128 128) (x7 : FVec Ideal ⟨1, ![128]⟩ .f32) (x8 : Spec.Tab 128 128)
  (x9 : FVec Ideal ⟨1, ![128]⟩ .f32) (x10 x11 : Spec.EdgeWords)

/-- The user row the dense step sees: its features plus what it collects of item rows. -/
def userIn (r : Fin 100000) (k : Fin 128) : EReal :=
  x0 (ix2 r k) + Spec.aggUser x1 x5 (Spec.readWords 50000#32 x11) (Spec.addWords x10) r k

/-- The messages the user row collects. -/
def userMsgs (r : Fin 100000) (k : Fin 128) : EReal :=
  Spec.msgUser x0 x1 x2 x3 (Spec.readWords 100000#32 x10) (Spec.readWords 50000#32 x11) (Spec.addWords x10) r k

theorem v49_apply (r : Fin 100000) (k : Fin 128) :
    val_main_v49 (F := Ideal) x0 x1 x5 x10 x11 (ix2 r k) = userIn x0 x1 x5 x10 x11 r k := by
  rw [val_main_v49_apply, v30_apply]
  rfl

theorem v51_apply (r : Fin 100000) (j : Fin 128) :
    val_main_v51 (F := Ideal) x0 x1 x5 x6 x10 x11 (ix2 r j)
      = ∑ k : Fin 128, userIn x0 x1 x5 x10 x11 r k * Spec.tr x6 (ix2 k j) := by
  rw [val_main_v51_apply, v50_eq]
  refine Finset.sum_congr rfl fun k _ => ?_
  rw [lidx_v51, ridx_v51, v49_apply]

theorem v53_apply (r : Fin 100000) (j : Fin 128) : val_main_v53 (F := Ideal) x7 (ix2 r j) = x7 (ix1 j) := by
  rw [val_main_v53_apply, val_main_v52_apply, idx_v53, idx_v52]

theorem v56_apply (r : Fin 100000) (j : Fin 128) :
    val_main_v56 (F := Ideal) x0 x1 x2 x3 x8 x10 x11 (ix2 r j)
      = ∑ k : Fin 128, userMsgs x0 x1 x2 x3 x10 x11 r k * Spec.tr x8 (ix2 k j) := by
  rw [val_main_v56_apply, v55_eq]
  refine Finset.sum_congr rfl fun k _ => ?_
  rw [lidx_v56, ridx_v56, v45_apply]
  rfl

theorem v59_apply (r : Fin 100000) (j : Fin 128) : val_main_v59 (F := Ideal) x9 (ix2 r j) = x9 (ix1 j) := by
  rw [val_main_v59_apply, val_main_v58_apply, idx_v59, idx_v58]

/-- The affine part of the dense step. -/
theorem v60_apply (r : Fin 100000) (j : Fin 128) :
    val_main_v60 (F := Ideal) x0 x1 x2 x3 x5 x6 x7 x8 x9 x10 x11 (ix2 r j)
      = Spec.preAct (Spec.tr x6) (Spec.tr x8) x7 x9 (userIn x0 x1 x5 x10 x11 r) (userMsgs x0 x1 x2 x3 x10 x11 r) j := by
  rw [val_main_v60_apply, val_main_v57_apply, val_main_v54_apply, v51_apply, v53_apply, v56_apply, v59_apply]
  rfl

/-- The rectified row. -/
theorem v77_apply (r : Fin 100000) (j : Fin 128) :
    val_main_v77 (F := Ideal) x0 x1 x2 x3 x5 x6 x7 x8 x9 x10 x11 (ix2 r j)
      = Spec.act (Spec.tr x6) (Spec.tr x8) x7 x9 (userIn x0 x1 x5 x10 x11 r) (userMsgs x0 x1 x2 x3 x10 x11 r) j := by
  rw [val_main_v77_apply, val_main_v74_apply, val_main_v76_apply, val_main_v73_apply, val_main_cst_10_apply,
    val_main_v75_apply, val_main_cst_11_apply, v60_apply]
  rfl

/-- The row's Euclidean norm, floored. -/
theorem v83_apply (r : Fin 100000) :
    val_main_v83 (F := Ideal) x0 x1 x2 x3 x5 x6 x7 x8 x9 x10 x11 (ix2 r (0 : Fin 1))
      = max (Ideal.sqrt (∑ k : Fin 128,
            Spec.act (Spec.tr x6) (Spec.tr x8) x7 x9 (userIn x0 x1 x5 x10 x11 r) (userMsgs x0 x1 x2 x3 x10 x11 r) k
              * Spec.act (Spec.tr x6) (Spec.tr x8) x7 x9 (userIn x0 x1 x5 x10 x11 r) (userMsgs x0 x1 x2 x3 x10 x11 r) k))
          (Ideal.ofBits .f32 0x2B8CBCCC#32) := by
  rw [val_main_v83_apply, val_main_v81_apply, val_main_v80_apply, idx_v80, val_main_v79_apply,
    val_main_cst_12_apply, val_main_v82_apply, val_main_cst_13_apply, Ideal.ofBits_def, Ideal.ofBits_def,
    Ideal.ofBits_zero_f32, zero_add]
  have hs : ∀ k : Fin 128, val_main_v78 (F := Ideal) x0 x1 x2 x3 x5 x6 x7 x8 x9 x10 x11 (idx_main_v79 (ix1 r) k)
      = Spec.act (Spec.tr x6) (Spec.tr x8) x7 x9 (userIn x0 x1 x5 x10 x11 r) (userMsgs x0 x1 x2 x3 x10 x11 r) k
        * Spec.act (Spec.tr x6) (Spec.tr x8) x7 x9 (userIn x0 x1 x5 x10 x11 r) (userMsgs x0 x1 x2 x3 x10 x11 r) k := by
    intro k
    rw [idx_v79, val_main_v78_apply, v77_apply]
    rfl
  rw [Finset.sum_congr rfl fun k _ => hs k]
  rfl

end DenseUser

/-- THE USER RESULT: the reference's first result is the specification's user table. -/
theorem user_eq (x0 : Spec.Tab 100000 128) (x1 : Spec.Tab 50000 128) (x2 : Spec.Tab 100000 1) (x3 : Spec.Tab 50000 1)
    (x5 : Spec.Tab 600000 1) (x6 : Spec.Tab 128 128) (x7 : FVec Ideal ⟨1, ![128]⟩ .f32) (x8 : Spec.Tab 128 128)
    (x9 : FVec Ideal ⟨1, ![128]⟩ .f32) (x10 x11 : Spec.EdgeWords) :
    Cert.ReferenceIdeal.Read.val_main_v85 (F := Ideal) x0 x1 x2 x3 x5 x6 x7 x8 x9 x10 x11
      = Cert.Spec.userResult x0 x1 x2 x3 x5 x6 x7 x8 x9 x10 x11 := by
  funext i
  obtain ⟨r, j, rfl⟩ : ∃ (r : Fin 100000) (j : Fin 128), i = ix2 r j := ⟨i 0, i 1, eq_ix2 i⟩
  rw [val_main_v85_apply, val_main_v84_apply, idx_v84, v77_apply, v83_apply]
  rfl

/-! ## The dense step on an item row -/

section DenseItem
variable (x0 : Spec.Tab 100000 128) (x1 : Spec.Tab 50000 128) (x2 : Spec.Tab 100000 1) (x3 : Spec.Tab 50000 1)
  (x4 : Spec.Tab 600000 1) (x6 : Spec.Tab 128 128) (x7 : FVec Ideal ⟨1, ![128]⟩ .f32) (x8 : Spec.Tab 128 128)
  (x9 : FVec Ideal ⟨1, ![128]⟩ .f32) (x10 x11 : Spec.EdgeWords)

/-- The item row the dense step sees: its features plus what it collects of user rows. -/
def itemIn (r : Fin 50000) (k : Fin 128) : EReal :=
  x1 (ix2 r k) + Spec.aggItem x0 x4 (Spec.readWords 100000#32 x10) (Spec.addWords x11) r k

/-- The messages the item row collects. -/
def itemMsgs (r : Fin 50000) (k : Fin 128) : EReal :=
  Spec.msgItem x0 x1 x2 x3 (Spec.readWords 100000#32 x10) (Spec.readWords 50000#32 x11) (Spec.addWords x11) r k

theorem v61_apply (r : Fin 50000) (k : Fin 128) :
    val_main_v61 (F := Ideal) x0 x1 x4 x10 x11 (ix2 r k) = itemIn x0 x1 x4 x10 x11 r k := by
  rw [val_main_v61_apply, v42_apply]
  rfl

theorem v63_apply (r : Fin 50000) (j : Fin 128) :
    val_main_v63 (F := Ideal) x0 x1 x4 x6 x10 x11 (ix2 r j)
      = ∑ k : Fin 128, itemIn x0 x1 x4 x10 x11 r k * Spec.tr x6 (ix2 k j) := by
  rw [val_main_v63_apply, v62_eq]
  refine Finset.sum_congr rfl fun k _ => ?_
  rw [lidx_v63, ridx_v63, v61_apply]

theorem v65_apply (r : Fin 50000) (j : Fin 128) : val_main_v65 (F := Ideal) x7 (ix2 r j) = x7 (ix1 j) := by
  rw [val_main_v65_apply, val_main_v64_apply, idx_v65, idx_v64]

theorem v68_apply (r : Fin 50000) (j : Fin 128) :
    val_main_v68 (F := Ideal) x0 x1 x2 x3 x8 x10 x11 (ix2 r j)
      = ∑ k : Fin 128, itemMsgs x0 x1 x2 x3 x10 x11 r k * Spec.tr x8 (ix2 k j) := by
  rw [val_main_v68_apply, v67_eq]
  refine Finset.sum_congr rfl fun k _ => ?_
  rw [lidx_v68, ridx_v68, v48_apply]
  rfl

theorem v71_apply (r : Fin 50000) (j : Fin 128) : val_main_v71 (F := Ideal) x9 (ix2 r j) = x9 (ix1 j) := by
  rw [val_main_v71_apply, val_main_v70_apply, idx_v71, idx_v70]

/-- The affine part of the dense step. -/
theorem v72_apply (r : Fin 50000) (j : Fin 128) :
    val_main_v72 (F := Ideal) x0 x1 x2 x3 x4 x6 x7 x8 x9 x10 x11 (ix2 r j)
      = Spec.preAct (Spec.tr x6) (Spec.tr x8) x7 x9 (itemIn x0 x1 x4 x10 x11 r) (itemMsgs x0 x1 x2 x3 x10 x11 r) j := by
  rw [val_main_v72_apply, val_main_v69_apply, val_main_v66_apply, v63_apply, v65_apply, v68_apply, v71_apply]
  rfl

/-- The rectified row. -/
theorem v90_apply (r : Fin 50000) (j : Fin 128) :
    val_main_v90 (F := Ideal) x0 x1 x2 x3 x4 x6 x7 x8 x9 x10 x11 (ix2 r j)
      = Spec.act (Spec.tr x6) (Spec.tr x8) x7 x9 (itemIn x0 x1 x4 x10 x11 r) (itemMsgs x0 x1 x2 x3 x10 x11 r) j := by
  rw [val_main_v90_apply, val_main_v87_apply, val_main_v89_apply, val_main_v86_apply, val_main_cst_14_apply,
    val_main_v88_apply, val_main_cst_15_apply, v72_apply]
  rfl

/-- The row's Euclidean norm, floored. -/
theorem v96_apply (r : Fin 50000) :
    val_main_v96 (F := Ideal) x0 x1 x2 x3 x4 x6 x7 x8 x9 x10 x11 (ix2 r (0 : Fin 1))
      = max (Ideal.sqrt (∑ k : Fin 128,
            Spec.act (Spec.tr x6) (Spec.tr x8) x7 x9 (itemIn x0 x1 x4 x10 x11 r) (itemMsgs x0 x1 x2 x3 x10 x11 r) k
              * Spec.act (Spec.tr x6) (Spec.tr x8) x7 x9 (itemIn x0 x1 x4 x10 x11 r) (itemMsgs x0 x1 x2 x3 x10 x11 r) k))
          (Ideal.ofBits .f32 0x2B8CBCCC#32) := by
  rw [val_main_v96_apply, val_main_v94_apply, val_main_v93_apply, idx_v93, val_main_v92_apply,
    val_main_cst_16_apply, val_main_v95_apply, val_main_cst_17_apply, Ideal.ofBits_def, Ideal.ofBits_def,
    Ideal.ofBits_zero_f32, zero_add]
  have hs : ∀ k : Fin 128, val_main_v91 (F := Ideal) x0 x1 x2 x3 x4 x6 x7 x8 x9 x10 x11 (idx_main_v92 (ix1 r) k)
      = Spec.act (Spec.tr x6) (Spec.tr x8) x7 x9 (itemIn x0 x1 x4 x10 x11 r) (itemMsgs x0 x1 x2 x3 x10 x11 r) k
        * Spec.act (Spec.tr x6) (Spec.tr x8) x7 x9 (itemIn x0 x1 x4 x10 x11 r) (itemMsgs x0 x1 x2 x3 x10 x11 r) k := by
    intro k
    rw [idx_v92, val_main_v91_apply, v90_apply]
    rfl
  rw [Finset.sum_congr rfl fun k _ => hs k]
  rfl

end DenseItem

/-- THE ITEM RESULT: the reference's second result is the specification's item table. -/
theorem item_eq (x0 : Spec.Tab 100000 128) (x1 : Spec.Tab 50000 128) (x2 : Spec.Tab 100000 1) (x3 : Spec.Tab 50000 1)
    (x4 : Spec.Tab 600000 1) (x6 : Spec.Tab 128 128) (x7 : FVec Ideal ⟨1, ![128]⟩ .f32) (x8 : Spec.Tab 128 128)
    (x9 : FVec Ideal ⟨1, ![128]⟩ .f32) (x10 x11 : Spec.EdgeWords) :
    Cert.ReferenceIdeal.Read.val_main_v98 (F := Ideal) x0 x1 x2 x3 x4 x6 x7 x8 x9 x10 x11
      = Cert.Spec.itemResult x0 x1 x2 x3 x4 x6 x7 x8 x9 x10 x11 := by
  funext i
  obtain ⟨r, j, rfl⟩ : ∃ (r : Fin 50000) (j : Fin 128), i = ix2 r j := ⟨i 0, i 1, eq_ix2 i⟩
  rw [val_main_v98_apply, val_main_v97_apply, idx_v97, v90_apply, v96_apply]
  rfl

end Cert.ReferenceIdeal.RefValue

end
-- ==== Proof.KernelRun.lean ====
/-
  The kernel program's run, with its two results named.

  The program is three segments: the host operations, then the user rows' dense step (10 grid points), then the item rows'
  (5 grid points). The frame certificate runs them in order and tracks the contents of every buffer at each boundary; at
  the last one (`W3`) the user result's buffer holds what the first pipeline's write-backs left in its output array — the
  second pipeline does not touch it — and the item result's buffer what the second's left. The run below is the launch
  over those segments once more, keeping ALL of the last boundary's contents in its post instead of the arguments' only;
  the two results and the unchanged arguments are then read off it.
-/
import proofs.«122322_j52561809769220_2_alg».proof.Proof.Patched.KernelIdeal.Frame

set_option maxRecDepth 16384

noncomputable section

namespace Cert.KernelIdeal.RunValue

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, with every unscoped buffer of every core at the last
    boundary's contents. -/
theorem run_mem : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c => h c)

/-- The user result's buffer at the last boundary is what the first pipeline's write-backs leave in its output array. -/
theorem W3_main_v53 (c : Dev nD) : W3 m ρ c (Proc.devRef .tc main_v53) = (dat0 (V1 m ρ) c).arrAt 7 cfg0.N :=
  (W3_of_ne m ρ c main_v53 (by decide)).trans (W2_arr m ρ c 7)

/-- The item result's buffer at the last boundary is what the second pipeline's write-backs leave in its output array. -/
theorem W3_main_v54 (c : Dev nD) : W3 m ρ c (Proc.devRef .tc main_v54) = (dat1 (V2 m ρ) c).arrAt 7 cfg1.N :=
  W3_arr m ρ c 7

/-- The run with the two results at their pipelines' output arrays and the twelve arguments as launched. -/
theorem run_results : θ_run defs (onTc (τ := τ) (main (F := F))) ⟨m, fun _ => 0, ρ⟩ (fun r => ∀ c : Dev nD,
      r.2.mem ((c.tc : Thread nD τ).loc main_v53) = (dat0 (V1 m ρ) c).arrAt 7 cfg0.N
      ∧ r.2.mem ((c.tc : Thread nD τ).loc main_v54) = (dat1 (V2 m ρ) c).arrAt 7 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c =>
      ⟨(h c _ (mem_uc main_v53 (by decide))).trans (W3_main_v53 m ρ c),
       (h c _ (mem_uc main_v54 (by decide))).trans (W3_main_v54 m ρ c),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c),
       (h c _ (mem_uc main_arg5 (by decide))).trans (W3_main_arg5 m ρ c),
       (h c _ (mem_uc main_arg6 (by decide))).trans (W3_main_arg6 m ρ c),
       (h c _ (mem_uc main_arg7 (by decide))).trans (W3_main_arg7 m ρ c),
       (h c _ (mem_uc main_arg8 (by decide))).trans (W3_main_arg8 m ρ c),
       (h c _ (mem_uc main_arg9 (by decide))).trans (W3_main_arg9 m ρ c),
       (h c _ (mem_uc main_arg10 (by decide))).trans (W3_main_arg10 m ρ c),
       (h c _ (mem_uc main_arg11 (by decide))).trans (W3_main_arg11 m ρ c)⟩)
    (run_mem m ρ)

end Cert.KernelIdeal.RunValue

end
-- ==== Proof.LibColumnLayout.lean ====
/-
  Column forms of three layout operations, read at an index: a vector of `a` entries stood up as an `[a, 1]` column, an
  `[a, 1]` column laid down as a `[1, a]` row (both keep the row-major order, so entry `i` stays entry `i`), and an
  `[a, 1]` column broadcast along its unit axis to `[a, b]` (row `p` is `b` copies of the column's entry `p`).
-/
import Idealize.ShloMosaic.Lib.Pipeline.Value
import Idealize.ShloMosaic.Lib.ValueIdx

namespace Cert.ColumnLayout

open Idealize.ShloMosaic Idealize.ShloMosaic.ValueIdx

variable {α : Type}

/-- An `[a]` array cast to `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column cast to a `[1, a]` row reads, at `(u, i)`, the column's entry `i`. -/
theorem shapeCast_a1_1a_apply {a : ℕ} (x : (⟨2, ![a, 1]⟩ : Shape).Idx → α) (h : (⟨2, ![a, 1]⟩ : Shape).ShapeCasts ⟨2, ![1, a]⟩)
    (u : Fin 1) (i : Fin a) : shapeCast ⟨2, ![1, a]⟩ x h (ix2 u i) = x (ix2 i (0 : Fin 1)) :=
  shapeCast_apply x h _ _ (by
    have hu : u.val = 0 := by omega
    rw [Shape.rowMajor_val_two, Shape.rowMajor_val_two]
    show i.val * 1 + 0 = u.val * a + i.val
    rw [hu, Nat.zero_mul, Nat.zero_add, Nat.mul_one, Nat.add_zero])

/-- An `[a, 1]` column broadcast to `[a, b]` reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.ColumnLayout
-- ==== Proof.KernelBody.lean ====
/-
  The kernel body's arithmetic, read at an index.

  One grid point takes a block of 10000 node rows — the features `x0`, the collected rows `x1` and the collected messages
  `x2` — with the two transposed weight matrices `x3`, `x5` and the two bias rows `x4`, `x6`, and stores ONE value: the
  dense step of every row of the block. Entry `(p, q)` of that value depends on row `p` of the three blocks only: it is
  `Spec.denseRow` of the row `x0[p,·] + x1[p,·]` and the messages `x2[p,·]`. The two matrix products are sums over the 128
  features (a product into a zero accumulator is just the sum), a bias row broadcast down the block reads its entry `q`,
  and the row's squared norm is the lane sum of the rectified row.
-/
import proofs.«122322_j52561809769220_2_alg».proof.Proof.Gen.KernelIdeal.Skeleton
import proofs.«122322_j52561809769220_2_alg».proof.Proof.Spec
import proofs.«122322_j52561809769220_2_alg».proof.Proof.LibColumnLayout
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.BodyValue

open Cert.KernelIdeal Cert.KernelIdeal.Gen Idealize.ShloMosaic Idealize.ShloMosaic.ValueIdx

/-- The block's matrix product: 10000 rows of 128 features times a 128 × 128 matrix. -/
abbrev blockDot := dot_S10000x128_S128x128_S10000x128_1_0_0_1_n_n

/-! ## The matrix product of a block, at `(p, q)` -/

theorem lhs_row (i : S10000x128.Idx) (k : blockDot.contr.Idx) : (blockDot.lhsIdx i k 0).val = (i 0).val := by
  unfold DotDims.lhsIdx
  rw [dif_neg (show ¬(0 : Fin S10000x128.rank) ∈ blockDot.lhsBatch by decide),
    dif_pos (show (0 : Fin S10000x128.rank) ∈ blockDot.lhsNonContracting by decide)]
  rfl

theorem lhs_feature (i : S10000x128.Idx) (k : blockDot.contr.Idx) : (blockDot.lhsIdx i k 1).val = (k ⟨0, by decide⟩).val :=
  blockDot.lhsIdx_val_of_single rfl i k

theorem rhs_feature (i : S10000x128.Idx) (k : blockDot.contr.Idx) : (blockDot.rhsIdx i k 0).val = (k ⟨0, by decide⟩).val :=
  blockDot.rhsIdx_val_of_single rfl i k

theorem rhs_column (i : S10000x128.Idx) (k : blockDot.contr.Idx) : (blockDot.rhsIdx i k 1).val = (i 1).val := by
  unfold DotDims.rhsIdx
  rw [dif_neg (show ¬(1 : Fin S128x128.rank) ∈ blockDot.rhsBatch by decide),
    dif_pos (show (1 : Fin S128x128.rank) ∈ blockDot.rhsNonContracting by decide)]
  rfl

/-- Into the zero accumulator, entry `(p, q)` of the product is the sum over the features of row `p` against column `q`. -/
theorem blockDot_apply (l : FVec Ideal S10000x128 .f32) (r : FVec Ideal S128x128 .f32) (p : Fin 10000) (q : Fin 128) :
    matmul blockDot (some .fp32) l r (constant (F := Ideal) S10000x128 .f32 0x00000000#32) (ix2 p q)
      = ∑ k : Fin 128, l (ix2 p k) * r (ix2 k q) := by
  simp only [matmul]
  rw [Ideal.matmul_constant_zero_apply, ← Equiv.sum_comp (contrEquiv1 blockDot 128 rfl rfl).symm]
  refine Finset.sum_congr rfl fun k _ => ?_
  have hk := contrEquiv1_symm_val blockDot 128 rfl rfl k
  have el : blockDot.lhsIdx (ix2 p q) ((contrEquiv1 blockDot 128 rfl rfl).symm k) = ix2 p k := funext fun a => Fin.ext (by
    match a with
    | ⟨0, _⟩ => exact lhs_row _ _
    | ⟨1, _⟩ => exact (lhs_feature _ _).trans hk)
  have er : blockDot.rhsIdx (ix2 p q) ((contrEquiv1 blockDot 128 rfl rfl).symm k) = ix2 k q := funext fun a => Fin.ext (by
    match a with
    | ⟨0, _⟩ => exact (rhs_feature _ _).trans hk
    | ⟨1, _⟩ => exact rhs_column _ _)
  rw [el, er]

/-! ## The layout steps of the body, at an index -/

/-- A cast between equal shapes reads the same entry. -/
theorem cast_self_apply {s : Shape} {α : Type} (x : s.Idx → α) (h : s.ShapeCasts s) (i : s.Idx) : shapeCast s x h i = x i := by
  rw [shapeCast_self]

/-- A bias row broadcast down the block reads its entry `q`. -/
theorem biasRow_apply (b : FVec Ideal S1x128 .f32) (p : Fin 10000) (q : Fin 128) :
    broadcastTo S10000x128 (shapeCast S1x128 b shapeCasts_S1x128_S1x128) broadcasts_S1x128_S10000x128 (ix2 p q) = b (ix2 (0 : Fin 1) q) := by
  rw [broadcastTo_1b_ab_apply, shapeCast_self]

/-- The lane sum of a block, at row `p`: the sum of the row. -/
theorem laneSum_apply (a : FVec Ideal S10000x128 .f32) (hφ : FKind.Formats .f32)
    (hacc : (0x00000000#32 : BitVec 32) = 0x00000000#32) (p : Fin 10000) :
    multiReduction .add [1] S10000 a 0x00000000#32 reduces_S10000x128_S10000 hφ hacc (ix1 p) = ∑ k : Fin 128, a (ix2 p k) := by
  refine (Ideal.multiReduction_add_single a 0x00000000#32 reduces_S10000x128_S10000 hφ hacc (ix1 p)).trans ?_
  refine Finset.sum_congr rfl fun k _ => congrArg a (funext fun d => Fin.ext ?_)
  match d with
  | ⟨0, _⟩ => rfl
  | ⟨1, _⟩ => rfl

/-! ## The body's value in three steps -/

section Steps
variable (x0 x1 x2 : FVec Ideal S10000x128 .f32) (x3 x5 : FVec Ideal S128x128 .f32) (x4 x6 : FVec Ideal S1x128 .f32)

/-- The affine part of the block: `(x0 + x1) · x3 + x4 + x2 · x5 + x6`, the bias rows broadcast down the block. -/
def affine : FVec Ideal S10000x128 .f32 :=
  addf (addf (addf
      (matmul blockDot (some .fp32) (addf x0 (shapeCast S10000x128 x1 shapeCasts_S10000x128_S10000x128))
        (shapeCast S128x128 x3 shapeCasts_S128x128_S128x128) (constant S10000x128 .f32 0x00000000#32))
      (broadcastTo S10000x128 (shapeCast S1x128 x4 shapeCasts_S1x128_S1x128) broadcasts_S1x128_S10000x128))
      (matmul blockDot (some .fp32) (shapeCast S10000x128 x2 shapeCasts_S10000x128_S10000x128)
        (shapeCast S128x128 x5 shapeCasts_S128x128_S128x128) (constant S10000x128 .f32 0x00000000#32)))
    (broadcastTo S10000x128 (shapeCast S1x128 x6 shapeCasts_S1x128_S1x128) broadcasts_S1x128_S10000x128)

/-- The rectifier over a block. -/
def rectified (h : FVec Ideal S10000x128 .f32) : FVec Ideal S10000x128 .f32 :=
  select (cmpf .ogt h (broadcast S10000x128 (Scalar.ofBits (F := Ideal) .f32 0x00000000#32))) h
    (mulf (broadcast S10000x128 (Scalar.ofBits (F := Ideal) .f32 0x3E4CCCCD#32)) h)

/-- Every row of a block over its floored Euclidean norm. -/
def normalized (a : FVec Ideal S10000x128 .f32) : FVec Ideal S10000x128 .f32 :=
  divf a (broadcastTo S10000x128
    (maximumf (sqrt (shapeCast S10000x1
        (multiReduction .add [1] S10000 (mulf a a) 0x00000000#32 reduces_S10000x128_S10000 (.inl rfl) rfl) shapeCasts_S10000_S10000x1))
      (broadcast S10000x1 (Scalar.ofBits (F := Ideal) .f32 0x2B8CBCCC#32))) broadcasts_S10000x1_S10000x128)

/-- The stored value is the three steps in a row. -/
theorem pay_eq : k0_pay1 (F := Ideal) x0 x1 x3 x4 x2 x5 x6 = normalized (rectified (affine x0 x1 x2 x3 x5 x4 x6)) := rfl

/-- The second pipeline's body stores the same function of its blocks. -/
theorem pay1_eq : k1_pay1 (F := Ideal) x0 x1 x3 x4 x2 x5 x6 = k0_pay1 (F := Ideal) x0 x1 x3 x4 x2 x5 x6 := rfl

/-- The bias row as a vector of 128 entries. -/
abbrev biasVec (b : FVec Ideal S1x128 .f32) : FVec Ideal ⟨1, ![128]⟩ .f32 := fun i => b (ix2 (0 : Fin 1) (i 0))

/-- The affine part at `(p, j)` is the specification's, of row `p`. -/
theorem affine_apply (p : Fin 10000) (j : Fin 128) :
    affine x0 x1 x2 x3 x5 x4 x6 (ix2 p j)
      = Spec.preAct x3 x5 (biasVec x4) (biasVec x6) (fun k => x0 (ix2 p k) + x1 (ix2 p k)) (fun k => x2 (ix2 p k)) j := by
  unfold affine Spec.preAct
  rw [addf_apply, addf_apply, addf_apply, blockDot_apply, blockDot_apply, biasRow_apply, biasRow_apply]
  simp only [addf_apply, shapeCast_self]

/-- The rectifier entry by entry. -/
theorem rectified_apply (h : FVec Ideal S10000x128 .f32) (i : S10000x128.Idx) : rectified h i = Spec.leaky (h i) := rfl

/-- A normalised block at `(p, q)`: the entry over the floored norm of row `p`. -/
theorem normalized_apply (a : FVec Ideal S10000x128 .f32) (p : Fin 10000) (q : Fin 128) :
    normalized a (ix2 p q)
      = Ideal.div (a (ix2 p q)) (max (Ideal.sqrt (∑ k : Fin 128, a (ix2 p k) * a (ix2 p k))) (Ideal.ofBits .f32 0x2B8CBCCC#32)) := by
  unfold normalized
  rw [divf_apply, Cert.ColumnLayout.broadcastTo_a1_ab_apply, maximumf_apply]
  show Ideal.div _ (max (Ideal.sqrt (shapeCast S10000x1 _ shapeCasts_S10000_S10000x1 (ix2 p (0 : Fin 1)))) _) = _
  rw [Cert.ColumnLayout.shapeCast_a_a1_apply, laneSum_apply]
  rfl

/-- THE BODY'S VALUE AT `(p, q)`: the dense step of row `p` of the blocks. -/
theorem pay_apply (p : Fin 10000) (q : Fin 128) :
    k0_pay1 (F := Ideal) x0 x1 x3 x4 x2 x5 x6 (ix2 p q)
      = Spec.denseRow x3 x5 (biasVec x4) (biasVec x6) (fun k => x0 (ix2 p k) + x1 (ix2 p k)) (fun k => x2 (ix2 p k)) q := by
  rw [pay_eq, normalized_apply]
  unfold Spec.denseRow Spec.act
  simp only [rectified_apply, affine_apply]

end Steps

end Cert.KernelIdeal.BodyValue

end
-- ==== Proof.UserBlocks.lean ====
/-
  From blocks to the array: the user rows' pipeline.

  Grid point `t` of the first pipeline takes rows `10000·t … 10000·t + 9999` of the feature table, of the collected rows and
  of the collected messages, and the whole of the two weight matrices and the two bias rows, and writes back the dense step
  of those rows as rows `10000·t …` of the result. The ten blocks tile the 100000 rows, so the result array ends holding,
  at `(r, j)`, the dense step of row `r` — one function of the contents the pipeline was entered with.
-/
import proofs.«122322_j52561809769220_2_alg».proof.Proof.Patched.KernelIdeal.Frame
import proofs.«122322_j52561809769220_2_alg».proof.Proof.KernelBody

set_option maxRecDepth 16384

noncomputable section

open scoped BigOperators

namespace Cert.KernelIdeal.UserBlocks

open Cert.KernelIdeal Cert.KernelIdeal.Gen Cert.KernelIdeal.GenP Cert.KernelIdeal.BodyValue
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem offsets_zero : (![0, 0] : Fin 2 → Nat) = fun _ => 0 := funext fun a => by fin_cases a <;> rfl

/-- The dense step of every row of a table: at `(r, j)` the dense step of row `r` of the features `f`, the collected rows
    `a` and the collected messages `g`, under the transposed weights and the bias rows. -/
def rowsFn (f a g : S100000x128.Idx → EReal) (w1 w2 : S128x128.Idx → EReal) (b1 b2 : S1x128.Idx → EReal) : S100000x128.Idx → EReal :=
  fun i => Spec.denseRow w1 w2 (biasVec b1) (biasVec b2) (fun k => f (ix2 (i 0) k) + a (ix2 (i 0) k)) (fun k => g (ix2 (i 0) k)) (i 1)

/-- The result array as one function of the contents the pipeline is entered with. -/
def rowsOf (c : Dev nD) : S100000x128.Idx → EReal :=
  rowsFn (V c main_arg0) (V c main_v45) (V c main_v46) (V c main_v49) (V c main_v50) (V c main_v51) (V c main_v52)

/-- The printed index maps over the grid: the three row-blocked inputs move with the output, column block 0; the four
    resident operands stay at block (0, 0). -/
theorem index_facts : ∀ t : Fin cfg0.N,
    win0_0.index t (0 : Fin 2) = win0_7.index t (0 : Fin 2) ∧ win0_0.index t (1 : Fin 2) = 0
    ∧ win0_1.index t (0 : Fin 2) = win0_7.index t (0 : Fin 2) ∧ win0_1.index t (1 : Fin 2) = 0
    ∧ win0_2.index t (0 : Fin 2) = win0_7.index t (0 : Fin 2) ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) ≤ 9 ∧ win0_7.index t (1 : Fin 2) = 0 :=
  (by decide +kernel : ∀ t : Fin grid0.N, _)

/-- Every row block is some point's. -/
theorem index_onto : ∀ q0 : Fin 10, ∃ t : Fin cfg0.N, win0_7.index t = ![q0.val, 0] :=
  (by decide +kernel : ∀ q0 : Fin 10, ∃ t : Fin grid0.N, win0_7.index t = ![q0.val, 0])

/-- WHAT POINT `t` WRITES BACK is block `t` of `rowsOf`. -/
theorem flushed_eq (c : Dev nD) (t : Fin cfg0.N) :
    (dat0 V c).flushed 7 t = ((cfg0.win 7).blk t).view.read (Elt Ideal) (rowsOf V c) := by
  show (cfg0.win 7).cut (grid0.coords t) ((dat0 V c).after 7 t) = _
  rw [after0_7]
  unfold out0_7
  rw [View.canon_unit_zero offsets_zero]
  simp only [View.ld_unit_zero (S := S10000x128) offsets_zero, View.ld_unit_zero (S := S128x128) offsets_zero,
    View.ld_unit_zero (S := S1x128) offsets_zero]
  obtain ⟨a00, a01, a10, a11, a20, a21, a30, a31, a40, a41, a50, a51, a60, a61, a70, a71⟩ := index_facts t
  funext j
  obtain ⟨p, q, rfl⟩ : ∃ (p : Fin 10000) (q : Fin 128), j = ix2 p q := ⟨j 0, j 1, eq_ix2 j⟩
  refine (pay_apply (iblk0 V c 0 t) (iblk0 V c 1 t) (iblk0 V c 2 t) (iblk0 V c 3 t) (iblk0 V c 5 t) (iblk0 V c 4 t) (iblk0 V c 6 t) p q).trans ?_
  show _ = rowsOf V c (((cfg0.win 7).blk t).view.emb (ix2 p q))
  -- a row-blocked input's entry `(p, k)` of block `t` is the array's entry in the output's row, column `k`
  have r0 : ∀ (f : S100000x128.Idx → EReal) (k : Fin 128),
      f (((cfg0.win 0).blk t).view.emb (ix2 p k)) = f (ix2 ((((cfg0.win 7).blk t).view.emb (ix2 p q)) 0) k) := by
    intro f k
    refine congrArg f (funext fun a => Fin.ext ?_)
    match a with
    | ⟨0, _⟩ => show win0_0.index t (0 : Fin 2) * 10000 + 1 * p.val = win0_7.index t (0 : Fin 2) * 10000 + 1 * p.val; omega
    | ⟨1, _⟩ => show win0_0.index t (1 : Fin 2) * 128 + 1 * k.val = k.val; omega
  have r1 : ∀ (f : S100000x128.Idx → EReal) (k : Fin 128),
      f (((cfg0.win 1).blk t).view.emb (ix2 p k)) = f (ix2 ((((cfg0.win 7).blk t).view.emb (ix2 p q)) 0) k) := by
    intro f k
    refine congrArg f (funext fun a => Fin.ext ?_)
    match a with
    | ⟨0, _⟩ => show win0_1.index t (0 : Fin 2) * 10000 + 1 * p.val = win0_7.index t (0 : Fin 2) * 10000 + 1 * p.val; omega
    | ⟨1, _⟩ => show win0_1.index t (1 : Fin 2) * 128 + 1 * k.val = k.val; omega
  have r2 : ∀ (f : S100000x128.Idx → EReal) (k : Fin 128),
      f (((cfg0.win 2).blk t).view.emb (ix2 p k)) = f (ix2 ((((cfg0.win 7).blk t).view.emb (ix2 p q)) 0) k) := by
    intro f k
    refine congrArg f (funext fun a => Fin.ext ?_)
    match a with
    | ⟨0, _⟩ => show win0_2.index t (0 : Fin 2) * 10000 + 1 * p.val = win0_7.index t (0 : Fin 2) * 10000 + 1 * p.val; omega
    | ⟨1, _⟩ => show win0_2.index t (1 : Fin 2) * 128 + 1 * k.val = k.val; omega
  -- a resident operand's block is its whole array
  have w3 : ∀ (f : S128x128.Idx → EReal) (y : S128x128.Idx), f (((cfg0.win 3).blk t).view.emb y) = f y := by
    intro f y
    refine congrArg f (funext fun a => Fin.ext ?_)
    match a with
    | ⟨0, _⟩ => show win0_3.index t (0 : Fin 2) * 128 + 1 * (y 0).val = (y 0).val; omega
    | ⟨1, _⟩ => show win0_3.index t (1 : Fin 2) * 128 + 1 * (y 1).val = (y 1).val; omega
  have w5 : ∀ (f : S128x128.Idx → EReal) (y : S128x128.Idx), f (((cfg0.win 5).blk t).view.emb y) = f y := by
    intro f y
    refine congrArg f (funext fun a => Fin.ext ?_)
    match a with
    | ⟨0, _⟩ => show win0_5.index t (0 : Fin 2) * 128 + 1 * (y 0).val = (y 0).val; omega
    | ⟨1, _⟩ => show win0_5.index t (1 : Fin 2) * 128 + 1 * (y 1).val = (y 1).val; omega
  have w4 : ∀ (f : S1x128.Idx → EReal) (y : S1x128.Idx), f (((cfg0.win 4).blk t).view.emb y) = f y := by
    intro f y
    refine congrArg f (funext fun a => Fin.ext ?_)
    match a with
    | ⟨0, _⟩ => show win0_4.index t (0 : Fin 2) * 1 + 1 * (y 0).val = (y 0).val; omega
    | ⟨1, _⟩ => show win0_4.index t (1 : Fin 2) * 128 + 1 * (y 1).val = (y 1).val; omega
  have w6 : ∀ (f : S1x128.Idx → EReal) (y : S1x128.Idx), f (((cfg0.win 6).blk t).view.emb y) = f y := by
    intro f y
    refine congrArg f (funext fun a => Fin.ext ?_)
    match a with
    | ⟨0, _⟩ => show win0_6.index t (0 : Fin 2) * 1 + 1 * (y 0).val = (y 0).val; omega
    | ⟨1, _⟩ => show win0_6.index t (1 : Fin 2) * 128 + 1 * (y 1).val = (y 1).val; omega
  have hq : (((cfg0.win 7).blk t).view.emb (ix2 p q)) 1 = q :=
    Fin.ext (by show win0_7.index t (1 : Fin 2) * 128 + 1 * q.val = q.val; omega)
  have h3 : iblk0 V c 3 t = V c main_v49 := funext fun y => w3 (V c main_v49) y
  have h5 : iblk0 V c 5 t = V c main_v50 := funext fun y => w5 (V c main_v50) y
  have h4 : iblk0 V c 4 t = V c main_v51 := funext fun y => w4 (V c main_v51) y
  have h6 : iblk0 V c 6 t = V c main_v52 := funext fun y => w6 (V c main_v52) y
  rw [h3, h5, h4, h6]
  show _ = Spec.denseRow (V c main_v49) (V c main_v50) (biasVec (V c main_v51)) (biasVec (V c main_v52)) _ _
    ((((cfg0.win 7).blk t).view.emb (ix2 p q)) 1)
  rw [hq]
  refine congrArg₂ (fun X M => Spec.denseRow (V c main_v49) (V c main_v50) (biasVec (V c main_v51)) (biasVec (V c main_v52)) X M q)
    (funext fun k => ?_) (funext fun k => ?_)
  · exact congrArg₂ (· + ·) (r0 (V c main_arg0) k) (r1 (V c main_v45) k)
  · exact r2 (V c main_v46) k

/-- An index of the result array is in point `t`'s block iff each coordinate is in the block's range on its axis. -/
theorem mem_blk (t : Fin cfg0.N) (i : S100000x128.Idx) :
    i ∈ ((cfg0.win 7).blk t).view.set ↔ ∀ a : Fin 2, win0_7.index t a * S10000x128.size a ≤ (i a).val
      ∧ (i a).val < win0_7.index t a * S10000x128.size a + S10000x128.size a := by
  show i ∈ ((View.whole main_v53).slice (win0_7.rect t)).set ↔ _
  rw [View.set_slice_whole, Rect.mem_set_unit]
  exact Iff.rfl

/-- The ten row blocks tile the array: row `r` is in the block of the point whose row block is `r / 10000`. -/
theorem cover (i : S100000x128.Idx) : ∃ t : Fin cfg0.N, (cfg0.win 7).flush t = true ∧ i ∈ ((cfg0.win 7).blk t).view.set := by
  have hi0 : (i 0).val < 100000 := (i 0).isLt
  have hi1 : (i 1).val < 128 := (i 1).isLt
  obtain ⟨t, ht⟩ := index_onto ⟨(i 0).val / 10000, by omega⟩
  have q0 : win0_7.index t (0 : Fin 2) = (i 0).val / 10000 := congrFun ht 0
  have q1 : win0_7.index t (1 : Fin 2) = 0 := congrFun ht 1
  refine ⟨t, flush0_7 t, ?_⟩
  rw [mem_blk]
  intro a
  match a with
  | ⟨0, _⟩ => show win0_7.index t (0 : Fin 2) * 10000 ≤ (i 0).val ∧ (i 0).val < win0_7.index t (0 : Fin 2) * 10000 + 10000; omega
  | ⟨1, _⟩ => show win0_7.index t (1 : Fin 2) * 128 ≤ (i 1).val ∧ (i 1).val < win0_7.index t (1 : Fin 2) * 128 + 128; omega

/-- THE RESULT ARRAY after the pipeline: `rowsOf` of the contents it was entered with. -/
theorem final (c : Dev nD) : (dat0 V c).arrAt 7 cfg0.N = rowsOf V c :=
  (dat0 V c).arrAt_eq_of_cover 7 (rowsOf V c) (fun t _ => flushed_eq V c t) cover

end Cert.KernelIdeal.UserBlocks

end
-- ==== Proof.ItemBlocks.lean ====
/-
  From blocks to the array: the item rows' pipeline.

  Grid point `t` of the second pipeline takes rows `10000·t … 10000·t + 9999` of the feature table, of the collected rows and
  of the collected messages, and the whole of the two weight matrices and the two bias rows, and writes back the dense step
  of those rows as rows `10000·t …` of the result. The five blocks tile the 50000 rows, so the result array ends holding,
  at `(r, j)`, the dense step of row `r` — one function of the contents the pipeline was entered with.
-/
import proofs.«122322_j52561809769220_2_alg».proof.Proof.Patched.KernelIdeal.Frame
import proofs.«122322_j52561809769220_2_alg».proof.Proof.KernelBody

set_option maxRecDepth 16384

noncomputable section

open scoped BigOperators

namespace Cert.KernelIdeal.ItemBlocks

open Cert.KernelIdeal Cert.KernelIdeal.Gen Cert.KernelIdeal.GenP Cert.KernelIdeal.BodyValue
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem offsets_zero : (![0, 0] : Fin 2 → Nat) = fun _ => 0 := funext fun a => by fin_cases a <;> rfl

/-- The dense step of every row of a table: at `(r, j)` the dense step of row `r` of the features `f`, the collected rows
    `a` and the collected messages `g`, under the transposed weights and the bias rows. -/
def rowsFn (f a g : S50000x128.Idx → EReal) (w1 w2 : S128x128.Idx → EReal) (b1 b2 : S1x128.Idx → EReal) : S50000x128.Idx → EReal :=
  fun i => Spec.denseRow w1 w2 (biasVec b1) (biasVec b2) (fun k => f (ix2 (i 0) k) + a (ix2 (i 0) k)) (fun k => g (ix2 (i 0) k)) (i 1)

/-- The result array as one function of the contents the pipeline is entered with. -/
def rowsOf (c : Dev nD) : S50000x128.Idx → EReal :=
  rowsFn (V c main_arg1) (V c main_v47) (V c main_v48) (V c main_v49) (V c main_v50) (V c main_v51) (V c main_v52)

/-- The printed index maps over the grid: the three row-blocked inputs move with the output, column block 0; the four
    resident operands stay at block (0, 0). -/
theorem index_facts : ∀ t : Fin cfg1.N,
    win1_0.index t (0 : Fin 2) = win1_7.index t (0 : Fin 2) ∧ win1_0.index t (1 : Fin 2) = 0
    ∧ win1_1.index t (0 : Fin 2) = win1_7.index t (0 : Fin 2) ∧ win1_1.index t (1 : Fin 2) = 0
    ∧ win1_2.index t (0 : Fin 2) = win1_7.index t (0 : Fin 2) ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) ≤ 4 ∧ win1_7.index t (1 : Fin 2) = 0 :=
  (by decide +kernel : ∀ t : Fin grid1.N, _)

/-- Every row block is some point's. -/
theorem index_onto : ∀ q0 : Fin 5, ∃ t : Fin cfg1.N, win1_7.index t = ![q0.val, 0] :=
  (by decide +kernel : ∀ q0 : Fin 5, ∃ t : Fin grid1.N, win1_7.index t = ![q0.val, 0])

/-- WHAT POINT `t` WRITES BACK is block `t` of `rowsOf`. -/
theorem flushed_eq (c : Dev nD) (t : Fin cfg1.N) :
    (dat1 V c).flushed 7 t = ((cfg1.win 7).blk t).view.read (Elt Ideal) (rowsOf V c) := by
  show (cfg1.win 7).cut (grid1.coords t) ((dat1 V c).after 7 t) = _
  rw [after1_7]
  unfold out1_7
  rw [View.canon_unit_zero offsets_zero]
  simp only [View.ld_unit_zero (S := S10000x128) offsets_zero, View.ld_unit_zero (S := S128x128) offsets_zero,
    View.ld_unit_zero (S := S1x128) offsets_zero]
  obtain ⟨a00, a01, a10, a11, a20, a21, a30, a31, a40, a41, a50, a51, a60, a61, a70, a71⟩ := index_facts t
  funext j
  obtain ⟨p, q, rfl⟩ : ∃ (p : Fin 10000) (q : Fin 128), j = ix2 p q := ⟨j 0, j 1, eq_ix2 j⟩
  refine ((congrFun (pay1_eq (iblk1 V c 0 t) (iblk1 V c 1 t) (iblk1 V c 2 t) (iblk1 V c 3 t) (iblk1 V c 5 t) (iblk1 V c 4 t) (iblk1 V c 6 t)) (ix2 p q)).trans
    (pay_apply (iblk1 V c 0 t) (iblk1 V c 1 t) (iblk1 V c 2 t) (iblk1 V c 3 t) (iblk1 V c 5 t) (iblk1 V c 4 t) (iblk1 V c 6 t) p q)).trans ?_
  show _ = rowsOf V c (((cfg1.win 7).blk t).view.emb (ix2 p q))
  -- a row-blocked input's entry `(p, k)` of block `t` is the array's entry in the output's row, column `k`
  have r0 : ∀ (f : S50000x128.Idx → EReal) (k : Fin 128),
      f (((cfg1.win 0).blk t).view.emb (ix2 p k)) = f (ix2 ((((cfg1.win 7).blk t).view.emb (ix2 p q)) 0) k) := by
    intro f k
    refine congrArg f (funext fun a => Fin.ext ?_)
    match a with
    | ⟨0, _⟩ => show win1_0.index t (0 : Fin 2) * 10000 + 1 * p.val = win1_7.index t (0 : Fin 2) * 10000 + 1 * p.val; omega
    | ⟨1, _⟩ => show win1_0.index t (1 : Fin 2) * 128 + 1 * k.val = k.val; omega
  have r1 : ∀ (f : S50000x128.Idx → EReal) (k : Fin 128),
      f (((cfg1.win 1).blk t).view.emb (ix2 p k)) = f (ix2 ((((cfg1.win 7).blk t).view.emb (ix2 p q)) 0) k) := by
    intro f k
    refine congrArg f (funext fun a => Fin.ext ?_)
    match a with
    | ⟨0, _⟩ => show win1_1.index t (0 : Fin 2) * 10000 + 1 * p.val = win1_7.index t (0 : Fin 2) * 10000 + 1 * p.val; omega
    | ⟨1, _⟩ => show win1_1.index t (1 : Fin 2) * 128 + 1 * k.val = k.val; omega
  have r2 : ∀ (f : S50000x128.Idx → EReal) (k : Fin 128),
      f (((cfg1.win 2).blk t).view.emb (ix2 p k)) = f (ix2 ((((cfg1.win 7).blk t).view.emb (ix2 p q)) 0) k) := by
    intro f k
    refine congrArg f (funext fun a => Fin.ext ?_)
    match a with
    | ⟨0, _⟩ => show win1_2.index t (0 : Fin 2) * 10000 + 1 * p.val = win1_7.index t (0 : Fin 2) * 10000 + 1 * p.val; omega
    | ⟨1, _⟩ => show win1_2.index t (1 : Fin 2) * 128 + 1 * k.val = k.val; omega
  -- a resident operand's block is its whole array
  have w3 : ∀ (f : S128x128.Idx → EReal) (y : S128x128.Idx), f (((cfg1.win 3).blk t).view.emb y) = f y := by
    intro f y
    refine congrArg f (funext fun a => Fin.ext ?_)
    match a with
    | ⟨0, _⟩ => show win1_3.index t (0 : Fin 2) * 128 + 1 * (y 0).val = (y 0).val; omega
    | ⟨1, _⟩ => show win1_3.index t (1 : Fin 2) * 128 + 1 * (y 1).val = (y 1).val; omega
  have w5 : ∀ (f : S128x128.Idx → EReal) (y : S128x128.Idx), f (((cfg1.win 5).blk t).view.emb y) = f y := by
    intro f y
    refine congrArg f (funext fun a => Fin.ext ?_)
    match a with
    | ⟨0, _⟩ => show win1_5.index t (0 : Fin 2) * 128 + 1 * (y 0).val = (y 0).val; omega
    | ⟨1, _⟩ => show win1_5.index t (1 : Fin 2) * 128 + 1 * (y 1).val = (y 1).val; omega
  have w4 : ∀ (f : S1x128.Idx → EReal) (y : S1x128.Idx), f (((cfg1.win 4).blk t).view.emb y) = f y := by
    intro f y
    refine congrArg f (funext fun a => Fin.ext ?_)
    match a with
    | ⟨0, _⟩ => show win1_4.index t (0 : Fin 2) * 1 + 1 * (y 0).val = (y 0).val; omega
    | ⟨1, _⟩ => show win1_4.index t (1 : Fin 2) * 128 + 1 * (y 1).val = (y 1).val; omega
  have w6 : ∀ (f : S1x128.Idx → EReal) (y : S1x128.Idx), f (((cfg1.win 6).blk t).view.emb y) = f y := by
    intro f y
    refine congrArg f (funext fun a => Fin.ext ?_)
    match a with
    | ⟨0, _⟩ => show win1_6.index t (0 : Fin 2) * 1 + 1 * (y 0).val = (y 0).val; omega
    | ⟨1, _⟩ => show win1_6.index t (1 : Fin 2) * 128 + 1 * (y 1).val = (y 1).val; omega
  have hq : (((cfg1.win 7).blk t).view.emb (ix2 p q)) 1 = q :=
    Fin.ext (by show win1_7.index t (1 : Fin 2) * 128 + 1 * q.val = q.val; omega)
  have h3 : iblk1 V c 3 t = V c main_v49 := funext fun y => w3 (V c main_v49) y
  have h5 : iblk1 V c 5 t = V c main_v50 := funext fun y => w5 (V c main_v50) y
  have h4 : iblk1 V c 4 t = V c main_v51 := funext fun y => w4 (V c main_v51) y
  have h6 : iblk1 V c 6 t = V c main_v52 := funext fun y => w6 (V c main_v52) y
  rw [h3, h5, h4, h6]
  show _ = Spec.denseRow (V c main_v49) (V c main_v50) (biasVec (V c main_v51)) (biasVec (V c main_v52)) _ _
    ((((cfg1.win 7).blk t).view.emb (ix2 p q)) 1)
  rw [hq]
  refine congrArg₂ (fun X M => Spec.denseRow (V c main_v49) (V c main_v50) (biasVec (V c main_v51)) (biasVec (V c main_v52)) X M q)
    (funext fun k => ?_) (funext fun k => ?_)
  · exact congrArg₂ (· + ·) (r0 (V c main_arg1) k) (r1 (V c main_v47) k)
  · exact r2 (V c main_v48) k

/-- An index of the result array is in point `t`'s block iff each coordinate is in the block's range on its axis. -/
theorem mem_blk (t : Fin cfg1.N) (i : S50000x128.Idx) :
    i ∈ ((cfg1.win 7).blk t).view.set ↔ ∀ a : Fin 2, win1_7.index t a * S10000x128.size a ≤ (i a).val
      ∧ (i a).val < win1_7.index t a * S10000x128.size a + S10000x128.size a := by
  show i ∈ ((View.whole main_v54).slice (win1_7.rect t)).set ↔ _
  rw [View.set_slice_whole, Rect.mem_set_unit]
  exact Iff.rfl

/-- The five row blocks tile the array: row `r` is in the block of the point whose row block is `r / 10000`. -/
theorem cover (i : S50000x128.Idx) : ∃ t : Fin cfg1.N, (cfg1.win 7).flush t = true ∧ i ∈ ((cfg1.win 7).blk t).view.set := by
  have hi0 : (i 0).val < 50000 := (i 0).isLt
  have hi1 : (i 1).val < 128 := (i 1).isLt
  obtain ⟨t, ht⟩ := index_onto ⟨(i 0).val / 10000, by omega⟩
  have q0 : win1_7.index t (0 : Fin 2) = (i 0).val / 10000 := congrFun ht 0
  have q1 : win1_7.index t (1 : Fin 2) = 0 := congrFun ht 1
  refine ⟨t, flush1_7 t, ?_⟩
  rw [mem_blk]
  intro a
  match a with
  | ⟨0, _⟩ => show win1_7.index t (0 : Fin 2) * 10000 ≤ (i 0).val ∧ (i 0).val < win1_7.index t (0 : Fin 2) * 10000 + 10000; omega
  | ⟨1, _⟩ => show win1_7.index t (1 : Fin 2) * 128 ≤ (i 1).val ∧ (i 1).val < win1_7.index t (1 : Fin 2) * 128 + 128; omega

/-- THE RESULT ARRAY after the pipeline: `rowsOf` of the contents it was entered with. -/
theorem final (c : Dev nD) : (dat1 V c).arrAt 7 cfg1.N = rowsOf V c :=
  (dat1 V c).arrAt_eq_of_cover 7 (rowsOf V c) (fun t _ => flushed_eq V c t) cover

end Cert.KernelIdeal.ItemBlocks

end
-- ==== Proof.KernelHost.lean ====
/-
  What the host operations of the kernel's program leave in the buffers its two dense steps read.

  Before the first dense step the program wraps the endpoint words, gathers the feature rows and the norms of both
  endpoints of every edge, forms per edge the message (user row × user norm) × (item row × item norm) and the two
  scaled rows (item row × edge norm, user row × edge norm), lays each scaled row beside the message as one row of 256
  columns, adds those rows into a table of zeros by the raw user words and into another by the raw item words, and
  cuts each table of sums into its left and right halves. A cut of a scatter-add of rows laid side by side is the
  scatter-add of the part: column `d` of the left half sums the left parts, column `d` of the right half the right
  parts, over the edges whose raw word is the row — the four sums of the specification. The weights are transposed and
  the biases stood up as one row; the two feature tables are left as launched.

  The edge stage is first written as functions of the argument arrays (`rowsU` … `sumI`) and read at an index; then
  each buffer's contents after the host operations are identified with those functions at the contents the operations
  started from, whatever they are; last, the start is the launch memory.
-/
import proofs.«122322_j52561809769220_2_alg».proof.Proof.Patched.KernelIdeal.Frame
import proofs.«122322_j52561809769220_2_alg».proof.Proof.Spec
import proofs.«122322_j52561809769220_2_alg».proof.Proof.LibRowIndex
import proofs.«122322_j52561809769220_2_alg».proof.Proof.LibColumnLayout
import Idealize.ShloMosaic.Lib.StableHlo.Run
import Idealize.ShloMosaic.Lib.ValueLayout
import Idealize.ShloMosaic.Lib.ValueIdx
import Idealize.ShloMosaic.Lib.Pipeline.Value
import Idealize.ShloMosaic.PureOps.Ideal.Laws

noncomputable section

open scoped BigOperators

namespace Cert.KernelIdeal.HostValue

open Idealize.ShloMosaic Idealize.ShloMosaic.ValueIdx Idealize.ShloMosaic.TcCoe
open Cert.KernelIdeal Cert.KernelIdeal.Gen Cert.KernelIdeal.GenP

/-! ## The edge stage, as the host operations spell it

One function of the argument arrays per buffer the two dense steps read. The endpoint words are wrapped and stood
up as columns exactly as the specification's `readWords` / `addWords` do; every row read is a gather by the wrapped
words, every sum a scatter-add by the raw words from a table of zeros. -/

section Pure
variable (x0 : Spec.Tab 100000 128) (x1 : Spec.Tab 50000 128) (x2 : Spec.Tab 100000 1) (x3 : Spec.Tab 50000 1)
  (x4 x5 : Spec.Tab 600000 1) (x10 x11 : Spec.EdgeWords)

/-- The user row each edge reads. -/
def rowsU : FVec Ideal S600000x128 .f32 :=
  Host.gather gather_S100000x128_S600000x1_S600000x128_1_0_n_n_0_1_1128 x0 (Spec.readWords 100000#32 x10)
/-- The item row each edge reads. -/
def rowsI : FVec Ideal S600000x128 .f32 :=
  Host.gather gather_S50000x128_S600000x1_S600000x128_1_0_n_n_0_1_1128 x1 (Spec.readWords 50000#32 x11)
/-- The user norm each edge reads. -/
def normU : FVec Ideal S600000x1 .f32 :=
  Host.gather gather_S100000x1_S600000x1_S600000x1_1_0_n_n_0_1_11 x2 (Spec.readWords 100000#32 x10)
/-- The item norm each edge reads. -/
def normI : FVec Ideal S600000x1 .f32 :=
  Host.gather gather_S50000x1_S600000x1_S600000x1_1_0_n_n_0_1_11 x3 (Spec.readWords 50000#32 x11)

/-- An `[600000, 1]` column repeated along 128 features. -/
abbrev spread (v : FVec Ideal S600000x1 .f32) : FVec Ideal S600000x128 .f32 :=
  broadcastInDim S600000x128 ![0, 1] Facts₀.bcast_S600000x1_S600000x128_0_1 v

/-- The edges' messages: (user row × user norm) × (item row × item norm). -/
def msgs : FVec Ideal S600000x128 .f32 :=
  mulf (mulf (rowsU x0 x10) (spread (normU x2 x10))) (mulf (rowsI x1 x11) (spread (normI x3 x11)))

/-- What the edges add into the user rows: [item row × edge norm | message]. -/
def updU : FVec Ideal S600000x256 .f32 :=
  concatenate S600000x256 1 [⟨S600000x128, mulf (rowsI x1 x11) (spread x5)⟩, ⟨S600000x128, msgs x0 x1 x2 x3 x10 x11⟩]
    Facts₀.concatenates_S600000x128_S600000x128_S600000x256_d1
/-- What the edges add into the item rows: [user row × edge norm | message]. -/
def updI : FVec Ideal S600000x256 .f32 :=
  concatenate S600000x256 1 [⟨S600000x128, mulf (rowsU x0 x10) (spread x4)⟩, ⟨S600000x128, msgs x0 x1 x2 x3 x10 x11⟩]
    Facts₀.concatenates_S600000x128_S600000x128_S600000x256_d1

/-- The user rows' two sums, side by side. -/
def sumU : FVec Ideal S100000x256 .f32 :=
  Host.scatterAdd (F := Ideal) scatter_S100000x256_S600000x1_S600000x256_1_0_0_1
    (broadcastInDim S100000x256 ![] Facts₀.bcast_S_S100000x256 (constant (F := Ideal) S_ .f32 0x00000000#32))
    (Spec.addWords x10) (updU x0 x1 x2 x3 x5 x10 x11)
/-- The item rows' two sums, side by side. -/
def sumI : FVec Ideal S50000x256 .f32 :=
  Host.scatterAdd (F := Ideal) scatter_S50000x256_S600000x1_S600000x256_1_0_0_1
    (broadcastInDim S50000x256 ![] Facts₀.bcast_S_S50000x256 (constant (F := Ideal) S_ .f32 0x00000000#32))
    (Spec.addWords x11) (updI x0 x1 x2 x3 x4 x10 x11)

end Pure

/-- A two-piece concatenation depends only on its two pieces: equal pieces give equal concatenations. -/
theorem concatenate_pair_congr {α : Type} {t s₁ s₂ : Shape} (a : Fin t.rank) {x₁ y₁ : s₁.Idx → α} {x₂ y₂ : s₂.Idx → α}
    (h : Shape.Concatenates [s₁, s₂] t a) (e₁ : x₁ = y₁) (e₂ : x₂ = y₂) :
    concatenate t a [⟨s₁, x₁⟩, ⟨s₂, x₂⟩] h = concatenate t a [⟨s₁, y₁⟩, ⟨s₂, y₂⟩] h := by
  subst e₁ e₂; rfl

attribute [local congr] concatenate_pair_congr

/-! ## The edge stage read at an index -/

section Point
variable (x0 : Spec.Tab 100000 128) (x1 : Spec.Tab 50000 128) (x2 : Spec.Tab 100000 1) (x3 : Spec.Tab 50000 1)
  (x4 x5 : Spec.Tab 600000 1) (x10 x11 : Spec.EdgeWords)

/-- The user row an edge reads, feature by feature: the table at the row its wrapped word names. -/
theorem rowsU_apply (n : Fin 600000) (d : Fin 128) :
    rowsU x0 x10 (ix2 n d) = x0 (ix2 (Spec.userRow (Spec.readWords 100000#32 x10) n) d) :=
  RowIndex.rowGather_apply (by decide) Facts₀.gather_S100000x128_S600000x1_S600000x128_1_0_n_n_0_1_1128_wf x0 _ n d

/-- The item row an edge reads. -/
theorem rowsI_apply (n : Fin 600000) (d : Fin 128) :
    rowsI x1 x11 (ix2 n d) = x1 (ix2 (Spec.itemRow (Spec.readWords 50000#32 x11) n) d) :=
  RowIndex.rowGather_apply (by decide) Facts₀.gather_S50000x128_S600000x1_S600000x128_1_0_n_n_0_1_1128_wf x1 _ n d

/-- The user norm an edge reads. -/
theorem normU_apply (n : Fin 600000) :
    normU x2 x10 (ix2 n (0 : Fin 1)) = x2 (ix2 (Spec.userRow (Spec.readWords 100000#32 x10) n) (0 : Fin 1)) :=
  RowIndex.rowGather_apply (by decide) Facts₀.gather_S100000x1_S600000x1_S600000x1_1_0_n_n_0_1_11_wf x2 _ n 0

/-- The item norm an edge reads. -/
theorem normI_apply (n : Fin 600000) :
    normI x3 x11 (ix2 n (0 : Fin 1)) = x3 (ix2 (Spec.itemRow (Spec.readWords 50000#32 x11) n) (0 : Fin 1)) :=
  RowIndex.rowGather_apply (by decide) Facts₀.gather_S50000x1_S600000x1_S600000x1_1_0_n_n_0_1_11_wf x3 _ n 0

/-- A column repeated along the features reads, at `(n, d)`, the column's entry `n`. -/
theorem spread_apply (v : FVec Ideal S600000x1 .f32) (n : Fin 600000) (d : Fin 128) :
    spread v (ix2 n d) = v (ix2 n (0 : Fin 1)) :=
  broadcastInDim_apply _ _ v (ix2 n d) (ix2 n (0 : Fin 1)) fun a => by
    match a with
    | ⟨0, _⟩ =>
      show n.val = if (600000 : Nat) = 1 then 0 else n.val
      exact (if_neg (by decide)).symm
    | ⟨1, _⟩ =>
      show 0 = if (1 : Nat) = 1 then 0 else d.val
      exact (if_pos rfl).symm

/-- An edge's message at a feature is the specification's. -/
theorem msgs_apply (n : Fin 600000) (d : Fin 128) :
    msgs x0 x1 x2 x3 x10 x11 (ix2 n d)
      = Spec.edgeMsg x0 x1 x2 x3 (Spec.readWords 100000#32 x10) (Spec.readWords 50000#32 x11) n d := by
  unfold msgs Spec.edgeMsg
  rw [mulf_apply, mulf_apply, mulf_apply, spread_apply, spread_apply, rowsU_apply, rowsI_apply, normU_apply, normI_apply]

end Point

/-! ## The four sums

Each table of sums is one scatter-add of a two-part row: its left 128 columns are the sums of the left parts, its
right 128 columns the sums of the right parts, over the edges whose raw word is the row. -/

section Sums
variable (x0 : Spec.Tab 100000 128) (x1 : Spec.Tab 50000 128) (x2 : Spec.Tab 100000 1) (x3 : Spec.Tab 50000 1)
  (x4 x5 : Spec.Tab 600000 1) (x10 x11 : Spec.EdgeWords)

/-- A column below 128 of what the edges add into the user rows: the item row scaled by the edge's norm. -/
theorem updU_left (n : Fin 600000) (d : Fin 128) (k : Fin 256) (hk : k.val = d.val) :
    updU x0 x1 x2 x3 x5 x10 x11 (ix2 n k)
      = x1 (ix2 (Spec.itemRow (Spec.readWords 50000#32 x11) n) d) * x5 (ix2 n (0 : Fin 1)) := by
  unfold updU
  refine (concatenate_pair_apply_left (s₁ := S600000x128) (s₂ := S600000x128) _ _ _ _ (ix2 n k) rfl (ix2 n d) fun b => ?_).trans ?_
  · match b with
    | ⟨0, _⟩ => rfl
    | ⟨1, _⟩ => exact hk.symm
  · rw [mulf_apply, rowsI_apply, spread_apply]

/-- A column from 128 on of what the edges add into the user rows: the message. -/
theorem updU_right (n : Fin 600000) (d : Fin 128) (k : Fin 256) (hk : k.val = 128 + d.val) :
    updU x0 x1 x2 x3 x5 x10 x11 (ix2 n k)
      = Spec.edgeMsg x0 x1 x2 x3 (Spec.readWords 100000#32 x10) (Spec.readWords 50000#32 x11) n d := by
  unfold updU
  refine (concatenate_pair_apply_right (s₁ := S600000x128) (s₂ := S600000x128) _ _ _ _ (ix2 n k) rfl rfl (ix2 n d) (fun b hb => ?_) ?_).trans
    (msgs_apply x0 x1 x2 x3 x10 x11 n d)
  · match b, hb with
    | ⟨0, _⟩, _ => rfl
    | ⟨1, _⟩, hb => exact absurd rfl hb
  · show d.val + 128 = k.val
    omega

/-- A column below 128 of what the edges add into the item rows: the user row scaled by the edge's norm. -/
theorem updI_left (n : Fin 600000) (d : Fin 128) (k : Fin 256) (hk : k.val = d.val) :
    updI x0 x1 x2 x3 x4 x10 x11 (ix2 n k)
      = x0 (ix2 (Spec.userRow (Spec.readWords 100000#32 x10) n) d) * x4 (ix2 n (0 : Fin 1)) := by
  unfold updI
  refine (concatenate_pair_apply_left (s₁ := S600000x128) (s₂ := S600000x128) _ _ _ _ (ix2 n k) rfl (ix2 n d) fun b => ?_).trans ?_
  · match b with
    | ⟨0, _⟩ => rfl
    | ⟨1, _⟩ => exact hk.symm
  · rw [mulf_apply, rowsU_apply, spread_apply]

/-- A column from 128 on of what the edges add into the item rows: the message. -/
theorem updI_right (n : Fin 600000) (d : Fin 128) (k : Fin 256) (hk : k.val = 128 + d.val) :
    updI x0 x1 x2 x3 x4 x10 x11 (ix2 n k)
      = Spec.edgeMsg x0 x1 x2 x3 (Spec.readWords 100000#32 x10) (Spec.readWords 50000#32 x11) n d := by
  unfold updI
  refine (concatenate_pair_apply_right (s₁ := S600000x128) (s₂ := S600000x128) _ _ _ _ (ix2 n k) rfl rfl (ix2 n d) (fun b hb => ?_) ?_).trans
    (msgs_apply x0 x1 x2 x3 x10 x11 n d)
  · match b, hb with
    | ⟨0, _⟩, _ => rfl
    | ⟨1, _⟩, hb => exact absurd rfl hb
  · show d.val + 128 = k.val
    omega

/-- The user rows' table of sums at `(g, k)`: from zero, the sum over the edges whose raw user word is `g`. -/
theorem sumU_apply (g : Fin 100000) (k : Fin 256) :
    sumU x0 x1 x2 x3 x5 x10 x11 (ix2 g k)
      = ∑ n ∈ Spec.edgesAt (Spec.addWords x10) g.val, updU x0 x1 x2 x3 x5 x10 x11 (ix2 n k) := by
  unfold sumU
  refine (RowIndex.rowScatterAdd_apply Facts₀.scatter_S100000x256_S600000x1_S600000x256_1_0_0_1_wf
    (Spec.addWords x10) _ _ g k).trans ?_
  show Ideal.ofBits .f32 0x00000000#32 + _ = _
  rw [Ideal.ofBits_zero_f32, zero_add]
  rfl

/-- The item rows' table of sums at `(g, k)`. -/
theorem sumI_apply (g : Fin 50000) (k : Fin 256) :
    sumI x0 x1 x2 x3 x4 x10 x11 (ix2 g k)
      = ∑ n ∈ Spec.edgesAt (Spec.addWords x11) g.val, updI x0 x1 x2 x3 x4 x10 x11 (ix2 n k) := by
  unfold sumI
  refine (RowIndex.rowScatterAdd_apply Facts₀.scatter_S50000x256_S600000x1_S600000x256_1_0_0_1_wf
    (Spec.addWords x11) _ _ g k).trans ?_
  show Ideal.ofBits .f32 0x00000000#32 + _ = _
  rw [Ideal.ofBits_zero_f32, zero_add]
  rfl

/-- The left half of the user rows' sums is what a user row collects of item rows. -/
theorem aggU_apply (g : Fin 100000) (d : Fin 128) :
    extractStridedSlice S100000x128 ![0, 0] (sumU x0 x1 x2 x3 x5 x10 x11) Facts₀.slices_S100000x256_S100000x128_0_0 (ix2 g d)
      = Spec.aggUser x1 x5 (Spec.readWords 50000#32 x11) (Spec.addWords x10) g d := by
  refine (slice2_axis1_apply 0 _ _ g d ⟨d.val, by have := d.isLt; omega⟩ (by show d.val = 0 + d.val; omega)).trans ?_
  rw [sumU_apply]
  unfold Spec.aggUser
  exact Finset.sum_congr rfl fun n _ => updU_left x0 x1 x2 x3 x5 x10 x11 n d _ rfl

/-- The right half of the user rows' sums is what a user row collects of messages. -/
theorem msgU_apply (g : Fin 100000) (d : Fin 128) :
    extractStridedSlice S100000x128 ![0, 128] (sumU x0 x1 x2 x3 x5 x10 x11) Facts₀.slices_S100000x256_S100000x128_0_128 (ix2 g d)
      = Spec.msgUser x0 x1 x2 x3 (Spec.readWords 100000#32 x10) (Spec.readWords 50000#32 x11) (Spec.addWords x10) g d := by
  refine (slice2_axis1_apply 128 _ _ g d ⟨128 + d.val, by have := d.isLt; omega⟩ rfl).trans ?_
  rw [sumU_apply]
  unfold Spec.msgUser
  exact Finset.sum_congr rfl fun n _ => updU_right x0 x1 x2 x3 x5 x10 x11 n d _ rfl

/-- The left half of the item rows' sums is what an item row collects of user rows. -/
theorem aggI_apply (g : Fin 50000) (d : Fin 128) :
    extractStridedSlice S50000x128 ![0, 0] (sumI x0 x1 x2 x3 x4 x10 x11) Facts₀.slices_S50000x256_S50000x128_0_0 (ix2 g d)
      = Spec.aggItem x0 x4 (Spec.readWords 100000#32 x10) (Spec.addWords x11) g d := by
  refine (slice2_axis1_apply 0 _ _ g d ⟨d.val, by have := d.isLt; omega⟩ (by show d.val = 0 + d.val; omega)).trans ?_
  rw [sumI_apply]
  unfold Spec.aggItem
  exact Finset.sum_congr rfl fun n _ => updI_left x0 x1 x2 x3 x4 x10 x11 n d _ rfl

/-- The right half of the item rows' sums is what an item row collects of messages. -/
theorem msgI_apply (g : Fin 50000) (d : Fin 128) :
    extractStridedSlice S50000x128 ![0, 128] (sumI x0 x1 x2 x3 x4 x10 x11) Facts₀.slices_S50000x256_S50000x128_0_128 (ix2 g d)
      = Spec.msgItem x0 x1 x2 x3 (Spec.readWords 100000#32 x10) (Spec.readWords 50000#32 x11) (Spec.addWords x11) g d := by
  refine (slice2_axis1_apply 128 _ _ g d ⟨128 + d.val, by have := d.isLt; omega⟩ rfl).trans ?_
  rw [sumI_apply]
  unfold Spec.msgItem
  exact Finset.sum_congr rfl fun n _ => updI_right x0 x1 x2 x3 x4 x10 x11 n d _ rfl

end Sums

/-! ## Each buffer after the host operations, from any starting contents -/

section After
variable (V : Valuation τ sig (Elt Ideal))

/-- No host operation writes the user table. -/
theorem after_arg0 : StableHlo.after hostOps0 V (Proc.devRef .tc main_arg0) = V (Proc.devRef .tc main_arg0) := by
  after_results_simp

/-- No host operation writes the item table. -/
theorem after_arg1 : StableHlo.after hostOps0 V (Proc.devRef .tc main_arg1) = V (Proc.devRef .tc main_arg1) := by
  after_results_simp

set_option maxHeartbeats 1000000 in
/-- The left half of the user rows' sums. -/
theorem after_v45 :
    (StableHlo.after hostOps0 V (Proc.devRef .tc main_v45) : S100000x128.Idx → EReal)
      = extractStridedSlice S100000x128 ![0, 0]
          (sumU (V (Proc.devRef .tc main_arg0)) (V (Proc.devRef .tc main_arg1)) (V (Proc.devRef .tc main_arg2))
            (V (Proc.devRef .tc main_arg3)) (V (Proc.devRef .tc main_arg5)) (V (Proc.devRef .tc main_arg10))
            (V (Proc.devRef .tc main_arg11))) Facts₀.slices_S100000x256_S100000x128_0_0 := by
  after_results_simp
  rfl

set_option maxHeartbeats 1000000 in
/-- The right half of the user rows' sums. -/
theorem after_v46 :
    (StableHlo.after hostOps0 V (Proc.devRef .tc main_v46) : S100000x128.Idx → EReal)
      = extractStridedSlice S100000x128 ![0, 128]
          (sumU (V (Proc.devRef .tc main_arg0)) (V (Proc.devRef .tc main_arg1)) (V (Proc.devRef .tc main_arg2))
            (V (Proc.devRef .tc main_arg3)) (V (Proc.devRef .tc main_arg5)) (V (Proc.devRef .tc main_arg10))
            (V (Proc.devRef .tc main_arg11))) Facts₀.slices_S100000x256_S100000x128_0_128 := by
  after_results_simp
  rfl

set_option maxHeartbeats 1000000 in
/-- The left half of the item rows' sums. -/
theorem after_v47 :
    (StableHlo.after hostOps0 V (Proc.devRef .tc main_v47) : S50000x128.Idx → EReal)
      = extractStridedSlice S50000x128 ![0, 0]
          (sumI (V (Proc.devRef .tc main_arg0)) (V (Proc.devRef .tc main_arg1)) (V (Proc.devRef .tc main_arg2))
            (V (Proc.devRef .tc main_arg3)) (V (Proc.devRef .tc main_arg4)) (V (Proc.devRef .tc main_arg10))
            (V (Proc.devRef .tc main_arg11))) Facts₀.slices_S50000x256_S50000x128_0_0 := by
  after_results_simp
  rfl

set_option maxHeartbeats 1000000 in
/-- The right half of the item rows' sums. -/
theorem after_v48 :
    (StableHlo.after hostOps0 V (Proc.devRef .tc main_v48) : S50000x128.Idx → EReal)
      = extractStridedSlice S50000x128 ![0, 128]
          (sumI (V (Proc.devRef .tc main_arg0)) (V (Proc.devRef .tc main_arg1)) (V (Proc.devRef .tc main_arg2))
            (V (Proc.devRef .tc main_arg3)) (V (Proc.devRef .tc main_arg4)) (V (Proc.devRef .tc main_arg10))
            (V (Proc.devRef .tc main_arg11))) Facts₀.slices_S50000x256_S50000x128_0_128 := by
  after_results_simp
  rfl

/-- The first weight matrix transposed. -/
theorem after_v49 :
    (StableHlo.after hostOps0 V (Proc.devRef .tc main_v49) : S128x128.Idx → EReal)
      = Spec.tr (V (Proc.devRef .tc main_arg6)) := by
  after_results_simp
  rfl

/-- The second weight matrix transposed. -/
theorem after_v50 :
    (StableHlo.after hostOps0 V (Proc.devRef .tc main_v50) : S128x128.Idx → EReal)
      = Spec.tr (V (Proc.devRef .tc main_arg8)) := by
  after_results_simp
  rfl

/-- The first bias as one row. -/
theorem after_v51 :
    (StableHlo.after hostOps0 V (Proc.devRef .tc main_v51) : S1x128.Idx → EReal)
      = fun i => (V (Proc.devRef .tc main_arg7) : S128.Idx → EReal) (ix1 (i 1)) := by
  after_results_simp
  funext i
  obtain ⟨u, j, rfl⟩ : ∃ (u : Fin 1) (j : Fin 128), i = ix2 u j := ⟨i 0, i 1, eq_ix2 i⟩
  exact shapeCast_a_1a_apply (V (Proc.devRef .tc main_arg7) : S128.Idx → EReal) Facts₀.shapeCasts_S128_S1x128 u j

/-- The second bias as one row. -/
theorem after_v52 :
    (StableHlo.after hostOps0 V (Proc.devRef .tc main_v52) : S1x128.Idx → EReal)
      = fun i => (V (Proc.devRef .tc main_arg9) : S128.Idx → EReal) (ix1 (i 1)) := by
  after_results_simp
  funext i
  obtain ⟨u, j, rfl⟩ : ∃ (u : Fin 1) (j : Fin 128), i = ix2 u j := ⟨i 0, i 1, eq_ix2 i⟩
  exact shapeCast_a_1a_apply (V (Proc.devRef .tc main_arg9) : S128.Idx → EReal) Facts₀.shapeCasts_S128_S1x128 u j

end After

/-! ## At the first dense step's entry, from the launch memory -/

section Entry
variable (m : (ℓ : Loc nD τ sig) → Buf (Elt Ideal) ℓ) (ρ : Dev nD → PrngReg) (c : Dev nD)

/-- The argument arrays as launched on core `c`. -/
abbrev a0 : Spec.Tab 100000 128 := m ((c : Thread nD τ).loc main_arg0)
abbrev a1 : Spec.Tab 50000 128 := m ((c : Thread nD τ).loc main_arg1)
abbrev a2 : Spec.Tab 100000 1 := m ((c : Thread nD τ).loc main_arg2)
abbrev a3 : Spec.Tab 50000 1 := m ((c : Thread nD τ).loc main_arg3)
abbrev a4 : Spec.Tab 600000 1 := m ((c : Thread nD τ).loc main_arg4)
abbrev a5 : Spec.Tab 600000 1 := m ((c : Thread nD τ).loc main_arg5)
abbrev a6 : Spec.Tab 128 128 := m ((c : Thread nD τ).loc main_arg6)
abbrev a7 : FVec Ideal ⟨1, ![128]⟩ .f32 := m ((c : Thread nD τ).loc main_arg7)
abbrev a8 : Spec.Tab 128 128 := m ((c : Thread nD τ).loc main_arg8)
abbrev a9 : FVec Ideal ⟨1, ![128]⟩ .f32 := m ((c : Thread nD τ).loc main_arg9)
abbrev a10 : Spec.EdgeWords := m ((c : Thread nD τ).loc main_arg10)
abbrev a11 : Spec.EdgeWords := m ((c : Thread nD τ).loc main_arg11)

theorem entry_arg0 : GenP.W1 m ρ c (Proc.devRef .tc main_arg0) = m ((c : Thread nD τ).loc main_arg0) :=
  after_arg0 (GenP.W0 m ρ c)

theorem entry_arg1 : GenP.W1 m ρ c (Proc.devRef .tc main_arg1) = m ((c : Thread nD τ).loc main_arg1) :=
  after_arg1 (GenP.W0 m ρ c)

theorem entry_v45 :
    (GenP.W1 m ρ c (Proc.devRef .tc main_v45) : S100000x128.Idx → EReal)
      = fun i => Spec.aggUser (a1 m c) (a5 m c) (Spec.readWords 50000#32 (a11 m c)) (Spec.addWords (a10 m c)) (i 0) (i 1) := by
  refine (after_v45 (GenP.W0 m ρ c)).trans ?_
  funext i
  obtain ⟨g, d, rfl⟩ : ∃ (g : Fin 100000) (d : Fin 128), i = ix2 g d := ⟨i 0, i 1, eq_ix2 i⟩
  exact aggU_apply (a0 m c) (a1 m c) (a2 m c) (a3 m c) (a5 m c) (a10 m c) (a11 m c) g d

theorem entry_v46 :
    (GenP.W1 m ρ c (Proc.devRef .tc main_v46) : S100000x128.Idx → EReal)
      = fun i => Spec.msgUser (a0 m c) (a1 m c) (a2 m c) (a3 m c) (Spec.readWords 100000#32 (a10 m c))
          (Spec.readWords 50000#32 (a11 m c)) (Spec.addWords (a10 m c)) (i 0) (i 1) := by
  refine (after_v46 (GenP.W0 m ρ c)).trans ?_
  funext i
  obtain ⟨g, d, rfl⟩ : ∃ (g : Fin 100000) (d : Fin 128), i = ix2 g d := ⟨i 0, i 1, eq_ix2 i⟩
  exact msgU_apply (a0 m c) (a1 m c) (a2 m c) (a3 m c) (a5 m c) (a10 m c) (a11 m c) g d

theorem entry_v47 :
    (GenP.W1 m ρ c (Proc.devRef .tc main_v47) : S50000x128.Idx → EReal)
      = fun i => Spec.aggItem (a0 m c) (a4 m c) (Spec.readWords 100000#32 (a10 m c)) (Spec.addWords (a11 m c)) (i 0) (i 1) := by
  refine (after_v47 (GenP.W0 m ρ c)).trans ?_
  funext i
  obtain ⟨g, d, rfl⟩ : ∃ (g : Fin 50000) (d : Fin 128), i = ix2 g d := ⟨i 0, i 1, eq_ix2 i⟩
  exact aggI_apply (a0 m c) (a1 m c) (a2 m c) (a3 m c) (a4 m c) (a10 m c) (a11 m c) g d

theorem entry_v48 :
    (GenP.W1 m ρ c (Proc.devRef .tc main_v48) : S50000x128.Idx → EReal)
      = fun i => Spec.msgItem (a0 m c) (a1 m c) (a2 m c) (a3 m c) (Spec.readWords 100000#32 (a10 m c))
          (Spec.readWords 50000#32 (a11 m c)) (Spec.addWords (a11 m c)) (i 0) (i 1) := by
  refine (after_v48 (GenP.W0 m ρ c)).trans ?_
  funext i
  obtain ⟨g, d, rfl⟩ : ∃ (g : Fin 50000) (d : Fin 128), i = ix2 g d := ⟨i 0, i 1, eq_ix2 i⟩
  exact msgI_apply (a0 m c) (a1 m c) (a2 m c) (a3 m c) (a4 m c) (a10 m c) (a11 m c) g d

theorem entry_v49 : (GenP.W1 m ρ c (Proc.devRef .tc main_v49) : S128x128.Idx → EReal) = Spec.tr (a6 m c) :=
  after_v49 (GenP.W0 m ρ c)

theorem entry_v50 : (GenP.W1 m ρ c (Proc.devRef .tc main_v50) : S128x128.Idx → EReal) = Spec.tr (a8 m c) :=
  after_v50 (GenP.W0 m ρ c)

theorem entry_v51 :
    (GenP.W1 m ρ c (Proc.devRef .tc main_v51) : S1x128.Idx → EReal) = fun i => a7 m c (ix1 (i 1)) :=
  after_v51 (GenP.W0 m ρ c)

theorem entry_v52 :
    (GenP.W1 m ρ c (Proc.devRef .tc main_v52) : S1x128.Idx → EReal) = fun i => a9 m c (ix1 (i 1)) :=
  after_v52 (GenP.W0 m ρ c)

end Entry

end Cert.KernelIdeal.HostValue

end
-- ==== Proof.ResultValue.lean ====
/-
  The two result arrays of the kernel program, as the specification's functions of the argument arrays.

  The first pipeline is entered with what the host operations left: the user features (an argument, untouched), the
  collected item rows and collected messages of the users (two column halves of one scatter-add), the transposed weights
  and the bias rows. The second pipeline is entered with what the first left, which is what the host operations left in
  every buffer the second reads: the first pipeline writes its own result array only and hands its inputs back as they
  were. So each result array is the dense step of every row of tables that are the specification's functions of the
  arguments.
-/
import proofs.«122322_j52561809769220_2_alg».proof.Proof.UserBlocks
import proofs.«122322_j52561809769220_2_alg».proof.Proof.ItemBlocks
import proofs.«122322_j52561809769220_2_alg».proof.Proof.KernelHost
import proofs.«122322_j52561809769220_2_alg».proof.Proof.KernelRun

set_option maxRecDepth 16384

noncomputable section

namespace Cert.KernelIdeal.ResultValue

open Cert.KernelIdeal Cert.KernelIdeal.Gen Cert.KernelIdeal.GenP Cert.KernelIdeal.BodyValue Cert.KernelIdeal.HostValue
open Idealize.ShloMosaic Idealize.ShloMosaic.TcCoe Idealize.ShloMosaic.ValueIdx Idealize.SL.Sem
open Idealize.ShloMosaic.Pipeline (Dat Cfg Window)

variable (m : (ℓ : Loc nD τ sig) → Buf (Elt Ideal) ℓ) (ρ : Dev nD → PrngReg) (c : Dev nD)

/-- A bias vector stood up as a one-row block and read back as a vector is the vector. -/
theorem biasVec_row (a : FVec Ideal ⟨1, ![128]⟩ .f32) : biasVec (fun i : S1x128.Idx => a (ix1 (i 1))) = a :=
  funext fun i => congrArg a (eq_ix1 i).symm

/-! ## The user rows -/

/-- THE USER RESULT: what the first pipeline's write-backs leave is the specification's user table. -/
theorem user_array : (dat0 (V1 m ρ) c).arrAt 7 cfg0.N = Cert.Spec.userResult (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  rw [UserBlocks.final (V1 m ρ) c]
  unfold UserBlocks.rowsOf
  rw [show V1 m ρ c main_arg0 = _ from entry_arg0 m ρ c, show V1 m ρ c main_v45 = _ from entry_v45 m ρ c,
    show V1 m ρ c main_v46 = _ from entry_v46 m ρ c, show V1 m ρ c main_v49 = _ from entry_v49 m ρ c,
    show V1 m ρ c main_v50 = _ from entry_v50 m ρ c, show V1 m ρ c main_v51 = _ from entry_v51 m ρ c,
    show V1 m ρ c main_v52 = _ from entry_v52 m ρ c]
  funext i
  unfold UserBlocks.rowsFn Cert.Spec.userResult Cert.Spec.outUser
  change Spec.denseRow _ _ (biasVec (fun j : S1x128.Idx => a7 m c (ix1 (j 1)))) (biasVec (fun j : S1x128.Idx => a9 m c (ix1 (j 1)))) _ _ _ = _
  rw [biasVec_row, biasVec_row]
  rfl

/-! ## What the second pipeline is entered with -/

/-- The item features, and the two column halves of the items' scatter-add, are not among the first pipeline's arrays. -/
theorem V2_main_arg1 : V2 m ρ c main_arg1 = V1 m ρ c main_arg1 := W2_of_ne m ρ c main_arg1 (by decide)
theorem V2_main_v47 : V2 m ρ c main_v47 = V1 m ρ c main_v47 := W2_of_ne m ρ c main_v47 (by decide)
theorem V2_main_v48 : V2 m ρ c main_v48 = V1 m ρ c main_v48 := W2_of_ne m ρ c main_v48 (by decide)
/-- The weights and bias rows are inputs of the first pipeline: never written back. -/
theorem V2_main_v49 : V2 m ρ c main_v49 = V1 m ρ c main_v49 :=
  (W2_arr m ρ c 3).trans (((dat0 (V1 m ρ) c).arrAt_in 3 rfl _).trans (A_eq0 (V1 m ρ) c 3))
theorem V2_main_v51 : V2 m ρ c main_v51 = V1 m ρ c main_v51 :=
  (W2_arr m ρ c 4).trans (((dat0 (V1 m ρ) c).arrAt_in 4 rfl _).trans (A_eq0 (V1 m ρ) c 4))
theorem V2_main_v50 : V2 m ρ c main_v50 = V1 m ρ c main_v50 :=
  (W2_arr m ρ c 5).trans (((dat0 (V1 m ρ) c).arrAt_in 5 rfl _).trans (A_eq0 (V1 m ρ) c 5))
theorem V2_main_v52 : V2 m ρ c main_v52 = V1 m ρ c main_v52 :=
  (W2_arr m ρ c 6).trans (((dat0 (V1 m ρ) c).arrAt_in 6 rfl _).trans (A_eq0 (V1 m ρ) c 6))

/-! ## The item rows -/

/-- THE ITEM RESULT: what the second pipeline's write-backs leave is the specification's item table. -/
theorem item_array : (dat1 (V2 m ρ) c).arrAt 7 cfg1.N = Cert.Spec.itemResult (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  rw [ItemBlocks.final (V2 m ρ) c]
  unfold ItemBlocks.rowsOf
  rw [V2_main_arg1, V2_main_v47, V2_main_v48, V2_main_v49, V2_main_v50, V2_main_v51, V2_main_v52]
  rw [show V1 m ρ c main_arg1 = _ from entry_arg1 m ρ c, show V1 m ρ c main_v47 = _ from entry_v47 m ρ c,
    show V1 m ρ c main_v48 = _ from entry_v48 m ρ c, show V1 m ρ c main_v49 = _ from entry_v49 m ρ c,
    show V1 m ρ c main_v50 = _ from entry_v50 m ρ c, show V1 m ρ c main_v51 = _ from entry_v51 m ρ c,
    show V1 m ρ c main_v52 = _ from entry_v52 m ρ c]
  funext i
  unfold ItemBlocks.rowsFn Cert.Spec.itemResult Cert.Spec.outItem
  change Spec.denseRow _ _ (biasVec (fun j : S1x128.Idx => a7 m c (ix1 (j 1)))) (biasVec (fun j : S1x128.Idx => a9 m c (ix1 (j 1)))) _ _ _ = _
  rw [biasVec_row, biasVec_row]
  rfl

end Cert.KernelIdeal.ResultValue

end
-- ==== Proof.lean ====
/-
  A two-sided graph layer: a Pallas kernel program against its jnp reference, equal at the ideal values.

  600000 edges join 100000 user rows and 50000 item rows of 128 features. Each edge reads its two endpoint rows (a word
  outside a table is clamped into it) and forms a message, the product of the two rows each scaled by its node's norm; each
  node row collects, over the edges whose raw endpoint word is that row, the other side's rows scaled by the edge's norm and
  the messages; then every node row goes through one dense step — `(feat + rows) · W1ᵀ + b1 + messages · W2ᵀ + b2`, a leaky
  rectifier, a division by the row's floored Euclidean norm.

  The REFERENCE scales the tables by the node norms before it gathers, and runs four scatter-adds of width 128 and the dense
  step over whole tables. The KERNEL PROGRAM gathers rows and norms separately and multiplies after, runs two scatter-adds of
  width 256 over the concatenations `[scaled rows | messages]` and takes the two column halves, and runs the dense step in
  two pipelines of row blocks (10 blocks of 10000 user rows, 5 of item rows), the matrix products on each block.

  At the ideal values these are one function of the arguments (`Spec.userResult`, `Spec.itemResult`): a gather commutes with an
  entrywise product; a column of a scatter-add of a concatenation is the scatter-add of that column; a block of rows of the
  dense step is the dense step of the block, since it sees one row at a time; sums over the 128 features are sums whatever
  operation spelt them. No law used needs the inputs finite: the precondition is never opened.

  The frames of the two kernel programs are the frame certificates' (run over the host segment and the two pipelines); the
  reference's is its run with the results dropped. The kernel program is its own idealization: nothing was rewritten.
-/
import proofs.«122322_j52561809769220_2_alg».proof.Defs
import proofs.«122322_j52561809769220_2_alg».proof.Proof.Gen.Kernel
import proofs.«122322_j52561809769220_2_alg».proof.Proof.Gen.Kernel.Skeleton
import proofs.«122322_j52561809769220_2_alg».proof.Proof.Patched.Kernel.Launch
import proofs.«122322_j52561809769220_2_alg».proof.Proof.Gen.Kernel.Points
import proofs.«122322_j52561809769220_2_alg».proof.Proof.Patched.Kernel.Frame
import proofs.«122322_j52561809769220_2_alg».proof.Proof.Gen.KernelIdeal
import proofs.«122322_j52561809769220_2_alg».proof.Proof.Gen.KernelIdeal.Skeleton
import proofs.«122322_j52561809769220_2_alg».proof.Proof.Patched.KernelIdeal.Launch
import proofs.«122322_j52561809769220_2_alg».proof.Proof.Gen.KernelIdeal.Points
import proofs.«122322_j52561809769220_2_alg».proof.Proof.Patched.KernelIdeal.Frame
import proofs.«122322_j52561809769220_2_alg».proof.Proof.Gen.ReferenceIdeal
import proofs.«122322_j52561809769220_2_alg».proof.Proof.Gen.Pre_finite_inputs
import proofs.«122322_j52561809769220_2_alg».proof.Proof.Gen.ReferenceIdeal.Run
import proofs.«122322_j52561809769220_2_alg».proof.Proof.Gen.ReferenceIdeal.Read
import proofs.«122322_j52561809769220_2_alg».proof.Proof.RefValue
import proofs.«122322_j52561809769220_2_alg».proof.Proof.KernelRun
import proofs.«122322_j52561809769220_2_alg».proof.Proof.ResultValue
import Idealize.ShloMosaic.Adequacy
import Idealize.ShloMosaic.Init

noncomputable section

namespace Cert.Proof

open Idealize.ShloMosaic Idealize.ShloMosaic.TcCoe Idealize.SL.Sem

/-- The kernel program as printed runs, its arguments unchanged. -/
theorem frame_kernel : Cert.frame_Kernel := fun m ρ _ => Cert.Kernel.GenP.frame m ρ

/-- The kernel program read at the ideal values runs, its arguments unchanged. -/
theorem frame_kernelIdeal : Cert.frame_KernelIdeal := fun m ρ _ => Cert.KernelIdeal.GenP.frame m ρ

/-- The reference runs, its arguments unchanged: its run with the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- Nothing of the kernel program was rewritten for the ideal reading. -/
theorem preserves : Cert.preserves_Kernel_KernelIdeal := trivial

/-- From memories agreeing on the arguments both programs end with the specification's two tables of those arguments. -/
theorem algebraic : Cert.algebraic_KernelIdeal_ReferenceIdeal := by
  intro m ρ m' ρ' _ hagree
  refine ⟨fun c => Cert.Spec.userResult (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)),
    fun c => Cert.Spec.itemResult (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)), ?_, ?_⟩
  · exact (θ_run Cert.KernelIdeal.defs _ _).mono
      (fun r h c => ⟨(h c).1.trans (Cert.KernelIdeal.ResultValue.user_array m ρ c),
        (h c).2.1.trans (Cert.KernelIdeal.ResultValue.item_array m ρ c), (h c).2.2⟩)
      (Cert.KernelIdeal.RunValue.run_results (F := Ideal) m ρ)
  · refine (θ_run Cert.ReferenceIdeal.defs _ _).mono (fun r h c => ⟨(h c).1.trans ?_, (h c).2.1.trans ?_, (h c).2.2⟩)
      (Cert.ReferenceIdeal.Value.run (F := Ideal) m' ρ')
    · obtain ⟨e0, e1, e2, e3, e4, e5, e6, e7, e8, e9, e10, e11⟩ := hagree c
      rw [Cert.ReferenceIdeal.Read.val_main_v85_eq, Cert.ReferenceIdeal.RefValue.user_eq, e0, e1, e2, e3, e5, e6, e7, e8, e9, e10, e11]
    · obtain ⟨e0, e1, e2, e3, e4, e5, e6, e7, e8, e9, e10, e11⟩ := hagree c
      rw [Cert.ReferenceIdeal.Read.val_main_v98_eq, Cert.ReferenceIdeal.RefValue.item_eq, e0, e1, e2, e3, e4, e6, e7, e8, e9, e10, e11]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
